-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x32 : Shape := ⟨2, ![1, 32]⟩

abbrev nBuf : Space → Nat
  | .hbm => 114
  | .vmem => 34
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S50000x64, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x64, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x64, .f32⟩
  | .hbm, ⟨91, _⟩ => ⟨S850000x64, .f32⟩
  | .hbm, ⟨92, _⟩ => ⟨S850000x64, .f32⟩
  | .hbm, ⟨93, _⟩ => ⟨S_, .f32⟩
  | .hbm, ⟨94, _⟩ => ⟨S50000x64, .f32⟩
  | .hbm, ⟨95, _⟩ => ⟨S850000x1, .i32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S64, .f32⟩
  | .hbm, ⟨103, _⟩ => ⟨S50000x1, .i32⟩
  | .hbm, ⟨104, _⟩ => ⟨S64, .f32⟩
  | .hbm, ⟨105, _⟩ => ⟨S_, .f32⟩
  | .hbm, ⟨106, _⟩ => ⟨S64x64, .f32⟩
  | .hbm, ⟨107, _⟩ => ⟨S50000x1, .i32⟩
  | .hbm, ⟨108, _⟩ => ⟨S64x64, .f32⟩
  | .hbm, ⟨109, _⟩ => ⟨S64x1, .f32⟩
  | .hbm, ⟨110, _⟩ => ⟨S64x64, .f32⟩
  | .hbm, ⟨111, _⟩ => ⟨S64x64, .f32⟩
  | .hbm, ⟨112, _⟩ => ⟨S1x32, .f32⟩
  | .hbm, ⟨113, _⟩ => ⟨S64x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S64x32, .f32⟩
  | .local _ .vmem, ⟨32, _⟩ => ⟨S1x32, .f32⟩
  | .local _ .vmem, ⟨33, _⟩ => ⟨S64x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64 : S_.BroadcastsInDim S64 (![] : Fin 0 → Fin S64.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x64.size a ≤ S64x64.size a
  hwx6_0 : ∀ i : grid6.Coords, EltTy.bits .f32 = 32 ∨ (Rect.block (s := S64x64) S64x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S64x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S64x32.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S50000x64, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x64, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S64, .f32⟩
  | .hbm, ⟨112, _⟩ => ⟨S50000x1, .i32⟩
  | .hbm, ⟨113, _⟩ => ⟨S64, .f32⟩
  | .hbm, ⟨114, _⟩ => ⟨S_, .f32⟩
  | .hbm, ⟨115, _⟩ => ⟨S64x64, .f32⟩
  | .hbm, ⟨116, _⟩ => ⟨S50000x1, .i32⟩
  | .hbm, ⟨117, _⟩ => ⟨S64x64, .f32⟩
  | .hbm, ⟨118, _⟩ => ⟨S64x1, .f32⟩
  | .hbm, ⟨119, _⟩ => ⟨S64x64, .f32⟩
  | .hbm, ⟨120, _⟩ => ⟨S64x64, .f32⟩
  | .hbm, ⟨121, _⟩ => ⟨S64x32, .f32⟩
  | .hbm, ⟨122, _⟩ => ⟨S1x32, .f32⟩
  | .hbm, ⟨123, _⟩ => ⟨S64x32, .f32⟩
  | .hbm, ⟨124, _⟩ => ⟨S64x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_c_10 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x32_S64x32_1_0_0_1_n_n_wf : DotDims.WF S64x64 S64x32 S64x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.KRun.lean ====
/-
  The network's run with every buffer named.

  The program is a chain: a stretch of host operations, then a kernel region, and so on — twelve segments. Each
  boundary of the chain has its contents: the launch memory pushed through the host stretches and, at each region, the
  region's arrays replaced by what its write-backs leave. From any launch memory with zero counters every weakly fair
  execution terminates without a fault, and its final memory holds, in every buffer that outlives the regions, the
  contents at the LAST boundary. Read at the result buffer and at the arguments this is the run the value claim needs:
  the result at the last boundary's contents, every argument as launched.
-/
import proofs.«102946_j54863912239540_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run's conclusion says of core `c`'s final memory: every buffer that outlives the regions holds the last
    boundary's contents. -/
abbrev Ends (c : Dev nD) (s : MemSt nD τ sig (Elt F)) : Prop :=
  ∀ b ∈ Pipeline.ucRefs τ sig, s.mem (((c : Thread nD τ)).1, b) = W12 m ρ c b

/-- Core `c` before the first segment: those buffers at their launch contents, its generator register at some state,
    nothing owed to any other core. -/
abbrev First (c : Dev nD) : sProp 𝕄 :=
  iprop(StableHlo.held (c : Thread nD τ) (Pipeline.ucRefs τ sig) (W0 m ρ c) ∗ R c)

set_option backward.isDefEq.respectTransparency.types false in
/-- Every weakly fair execution ends, and ends with every surviving buffer at the last boundary's contents: the
    launch of a program that runs as a list of host segments and kernel regions, over the chain's segments. -/
theorem run_all : θ_run defs (onTc (τ := τ) (main (F := F))) ⟨m, fun _ => 0, ρ⟩ (fun r => ∀ c : Dev nD, Ends m ρ c r.2) :=
  Pipeline.θ_run_regions_kit (pcfgs (F := F)) adm (pdats m ρ) () cellOf_inj emb₁ defs₀ 𝒱₀ L lv m ρ main (segs m ρ)
    -- the program IS the run of its segments
    (fun c Q => by rw [main_run m ρ c])
    -- and enters each of its seven pipelines once
    (by simp only [segs, Pipeline.Seg.pipes_host, Pipeline.Seg.pipes_region, Pipeline.Seg.pipes_nil]; decide)
    -- no core owes anything at launch, no level is assigned, no resource beyond the pipelines' cells is dealt
    (O₀ := 0) (hL := fun _ _ => rfl) (G := fun _ => iprop(emp))
    (u₀ := initOf (Pipeline.cells cfgs cellOf_inj) (Pipeline.launchToks cfgs cellOf_inj))
    (hu₀ := by
      -- the launch element is the cells' element as it stands; a separating conjunction of `emp` is `emp`
      iintro Hcells
      imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      · iapply (show (BI.emp : sProp 𝕄) ⊢ bigSep Finset.univ (fun _ : Dev nD => (BI.emp : sProp 𝕄)) from by
          rw [BI.bigSep_emp_const])
        iempintro)
    (T₀ := First m ρ) (Tₙ := Tₙ m ρ)
    -- each segment is entered from exactly what the one before it leaves: thirteen links, all by reflexivity
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      -- core by core: the launch deals the surviving buffers at the launch memory (that is `held` at the first
      -- boundary's contents), the generator register, and an empty debt; the rest of the deal is not needed
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Hdebt, -, Hreg, -⟩, -⟩
      imodintro
      isplitl [Hbufs]
      · iexact Hbufs
      isplitl [Hreg]
      · iexists _
        iexact Hreg
      iexists ∅
      iexact Hdebt)
    (QY := Ends m ρ)
    (hfin := fun c s' => by
      -- the last thread state holds each surviving buffer whole at the last boundary's contents: read them all
      -- against the final state
      iintro ⟨⟨Hbufs, -⟩, Hstate⟩
      unfold StableHlo.held
      imodintro
      iapply (pointsTo_read_all (Pipeline.ucRefs τ sig) (fun b => (((c : Thread nD τ)).1, b)) (W12 m ρ c) s')
      isplitl [Hbufs] <;> iassumption)
    (hQ := fun s h c => h c)

/-- The same run read at the result buffer and at the arguments: the result ends at the last boundary's contents, and
    every argument array ends as launched (no host operation and no region writes one). -/
theorem run_result : θ_run defs (onTc (τ := τ) (main (F := F))) ⟨m, fun _ => 0, ρ⟩ (fun r => ∀ c : Dev nD,
      r.2.mem ((c.tc : Thread nD τ).loc main_v84) = W12 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v84 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)
    (run_all m ρ)

end Cert.KernelIdeal.KRun

end
-- ==== Proof.Carry.lean ====
/-
  Buffers that ride through the chain untouched.

  A boundary's contents differ from the previous boundary's only at what the segment between them writes: a host
  stretch writes its operations' result buffers, a region writes its output window's array. So a buffer that no
  segment up to some boundary writes — an argument of the program, or the edge lists and edge weights the first
  stretch computes once and every layer reads again — still holds there what it held when it was last written.
  The chain lemmas below say this for any such buffer, from the facts "no region so far has it among its arrays" and
  "stretch J leaves it as it found it"; they are then read at the particular buffers the layers use.
-/
import proofs.«102946_j54863912239540_1_alg».proof.Proof.Gen.KernelIdeal.Frame

set_option maxRecDepth 16384

noncomputable section

namespace Cert.KernelIdeal.Carry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- Closes "this host stretch leaves that buffer as it found it": no operation of the stretch has it as its result. -/
macro "untouched" : tactic => `(tactic| (first | (after_results_simp <;> rfl) | after_results_simp | after_results))

/-! ## An argument of the program, followed from the launch up to a boundary -/

section FromLaunch

variable (b : Ref sig .tc)

/-- Through the first stretch. -/
theorem upTo1 (h0 : StableHlo.after hostOps0 (W0 m ρ c) (Proc.devRef .tc b) = W0 m ρ c (Proc.devRef .tc b)) :
    W1 m ρ c (Proc.devRef .tc b) = m ((c.tc : Thread nD τ).loc b) := h0

/-- … and the first region. -/
theorem upTo2 (n0 : ∀ w, Pipeline.arrRef spec0 w ≠ b)
    (h0 : StableHlo.after hostOps0 (W0 m ρ c) (Proc.devRef .tc b) = W0 m ρ c (Proc.devRef .tc b)) :
    W2 m ρ c (Proc.devRef .tc b) = m ((c.tc : Thread nD τ).loc b) :=
  (W2_of_ne m ρ c b n0).trans (upTo1 m ρ c b h0)

/-- … the second stretch and the second region. -/
theorem upTo4 (n0 : ∀ w, Pipeline.arrRef spec0 w ≠ b) (n1 : ∀ w, Pipeline.arrRef spec1 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W4 m ρ c (Proc.devRef .tc b) = m ((c.tc : Thread nD τ).loc b) :=
  (W4_of_ne m ρ c b n1).trans (h1.trans (upTo2 m ρ c b n0 h0))

/-- … the third region. -/
theorem upTo5 (n0 : ∀ w, Pipeline.arrRef spec0 w ≠ b) (n1 : ∀ w, Pipeline.arrRef spec1 w ≠ b)
    (n2 : ∀ w, Pipeline.arrRef spec2 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W5 m ρ c (Proc.devRef .tc b) = m ((c.tc : Thread nD τ).loc b) :=
  (W5_of_ne m ρ c b n2).trans (upTo4 m ρ c b n0 n1 h0 h1)

/-- … the third stretch and the fourth region. -/
theorem upTo7 (n0 : ∀ w, Pipeline.arrRef spec0 w ≠ b) (n1 : ∀ w, Pipeline.arrRef spec1 w ≠ b)
    (n2 : ∀ w, Pipeline.arrRef spec2 w ≠ b) (n3 : ∀ w, Pipeline.arrRef spec3 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b))
    (h3 : StableHlo.after hostOps3 (W5 m ρ c) (Proc.devRef .tc b) = W5 m ρ c (Proc.devRef .tc b)) :
    W7 m ρ c (Proc.devRef .tc b) = m ((c.tc : Thread nD τ).loc b) :=
  (W7_of_ne m ρ c b n3).trans (h3.trans (upTo5 m ρ c b n0 n1 n2 h0 h1))

/-- … the fifth region. -/
theorem upTo8 (n0 : ∀ w, Pipeline.arrRef spec0 w ≠ b) (n1 : ∀ w, Pipeline.arrRef spec1 w ≠ b)
    (n2 : ∀ w, Pipeline.arrRef spec2 w ≠ b) (n3 : ∀ w, Pipeline.arrRef spec3 w ≠ b) (n4 : ∀ w, Pipeline.arrRef spec4 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b))
    (h3 : StableHlo.after hostOps3 (W5 m ρ c) (Proc.devRef .tc b) = W5 m ρ c (Proc.devRef .tc b)) :
    W8 m ρ c (Proc.devRef .tc b) = m ((c.tc : Thread nD τ).loc b) :=
  (W8_of_ne m ρ c b n4).trans (upTo7 m ρ c b n0 n1 n2 n3 h0 h1 h3)

/-- … the fourth stretch and the sixth region. -/
theorem upTo10 (n0 : ∀ w, Pipeline.arrRef spec0 w ≠ b) (n1 : ∀ w, Pipeline.arrRef spec1 w ≠ b)
    (n2 : ∀ w, Pipeline.arrRef spec2 w ≠ b) (n3 : ∀ w, Pipeline.arrRef spec3 w ≠ b) (n4 : ∀ w, Pipeline.arrRef spec4 w ≠ b)
    (n5 : ∀ w, Pipeline.arrRef spec5 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b))
    (h3 : StableHlo.after hostOps3 (W5 m ρ c) (Proc.devRef .tc b) = W5 m ρ c (Proc.devRef .tc b))
    (h5 : StableHlo.after hostOps5 (W8 m ρ c) (Proc.devRef .tc b) = W8 m ρ c (Proc.devRef .tc b)) :
    W10 m ρ c (Proc.devRef .tc b) = m ((c.tc : Thread nD τ).loc b) :=
  (W10_of_ne m ρ c b n5).trans (h5.trans (upTo8 m ρ c b n0 n1 n2 n3 n4 h0 h1 h3))

/-- … and the last stretch: the last region's entry. -/
theorem upTo11 (n0 : ∀ w, Pipeline.arrRef spec0 w ≠ b) (n1 : ∀ w, Pipeline.arrRef spec1 w ≠ b)
    (n2 : ∀ w, Pipeline.arrRef spec2 w ≠ b) (n3 : ∀ w, Pipeline.arrRef spec3 w ≠ b) (n4 : ∀ w, Pipeline.arrRef spec4 w ≠ b)
    (n5 : ∀ w, Pipeline.arrRef spec5 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b))
    (h3 : StableHlo.after hostOps3 (W5 m ρ c) (Proc.devRef .tc b) = W5 m ρ c (Proc.devRef .tc b))
    (h5 : StableHlo.after hostOps5 (W8 m ρ c) (Proc.devRef .tc b) = W8 m ρ c (Proc.devRef .tc b))
    (h6 : StableHlo.after hostOps6 (W10 m ρ c) (Proc.devRef .tc b) = W10 m ρ c (Proc.devRef .tc b)) :
    W11 m ρ c (Proc.devRef .tc b) = m ((c.tc : Thread nD τ).loc b) :=
  h6.trans (upTo10 m ρ c b n0 n1 n2 n3 n4 n5 h0 h1 h3 h5)

end FromLaunch

/-! ## A buffer the first stretch computes, followed from the first region's entry to a later layer's stretch -/

section FromFirstStretch

variable (b : Ref sig .tc)

/-- Through the first region: the second stretch's entry. -/
theorem keep2 (n0 : ∀ w, Pipeline.arrRef spec0 w ≠ b) :
    W2 m ρ c (Proc.devRef .tc b) = W1 m ρ c (Proc.devRef .tc b) := W2_of_ne m ρ c b n0

/-- … the second stretch and the next two regions: the third stretch's entry. -/
theorem keep5 (n0 : ∀ w, Pipeline.arrRef spec0 w ≠ b) (n1 : ∀ w, Pipeline.arrRef spec1 w ≠ b) (n2 : ∀ w, Pipeline.arrRef spec2 w ≠ b)
    (h1 : StableHlo.after hostOps1 (W2 m ρ c) (Proc.devRef .tc b) = W2 m ρ c (Proc.devRef .tc b)) :
    W5 m ρ c (Proc.devRef .tc b) = W1 m ρ c (Proc.devRef .tc b) :=
  (W5_of_ne m ρ c b n2).trans ((W4_of_ne m ρ c b n1).trans (h1.trans (keep2 m ρ c b n0)))

/-- … the third stretch and the next two regions: the fourth stretch's entry. -/
theorem keep8 (n0 : ∀ w, Pipeline.arrRef spec0 w ≠ b) (n1 : ∀ w, Pipeline.arrRef spec1 w ≠ b) (n2 : ∀ w, Pipeline.arrRef spec2 w ≠ b)
    (n3 : ∀ w, Pipeline.arrRef spec3 w ≠ b) (n4 : ∀ w, Pipeline.arrRef spec4 w ≠ b)
    (h1 : StableHlo.after hostOps1 (W2 m ρ c) (Proc.devRef .tc b) = W2 m ρ c (Proc.devRef .tc b))
    (h3 : StableHlo.after hostOps3 (W5 m ρ c) (Proc.devRef .tc b) = W5 m ρ c (Proc.devRef .tc b)) :
    W8 m ρ c (Proc.devRef .tc b) = W1 m ρ c (Proc.devRef .tc b) :=
  (W8_of_ne m ρ c b n4).trans ((W7_of_ne m ρ c b n3).trans (h3.trans (keep5 m ρ c b n0 n1 n2 h1)))

end FromFirstStretch

/-! ## Read at the buffers the layers use -/

/-- The node features and the first weight matrix, at the first region's entry. -/
theorem arg0_at1 : W1 m ρ c (Proc.devRef .tc main_arg0) = m ((c.tc : Thread nD τ).loc main_arg0) :=
  upTo1 m ρ c main_arg0 (by untouched)
theorem arg3_at1 : W1 m ρ c (Proc.devRef .tc main_arg3) = m ((c.tc : Thread nD τ).loc main_arg3) :=
  upTo1 m ρ c main_arg3 (by untouched)

/-- The first bias, at the second stretch's entry. -/
theorem arg4_at2 : W2 m ρ c (Proc.devRef .tc main_arg4) = m ((c.tc : Thread nD τ).loc main_arg4) :=
  upTo2 m ρ c main_arg4 (by decide) (by untouched)

/-- The second weight matrix, at the third region's entry. -/
theorem arg5_at4 : W4 m ρ c (Proc.devRef .tc main_arg5) = m ((c.tc : Thread nD τ).loc main_arg5) :=
  upTo4 m ρ c main_arg5 (by decide) (by decide) (by untouched) (by untouched)

/-- The second bias, at the third stretch's entry. -/
theorem arg6_at5 : W5 m ρ c (Proc.devRef .tc main_arg6) = m ((c.tc : Thread nD τ).loc main_arg6) :=
  upTo5 m ρ c main_arg6 (by decide) (by decide) (by decide) (by untouched) (by untouched)

/-- The third weight matrix, at the fifth region's entry. -/
theorem arg7_at7 : W7 m ρ c (Proc.devRef .tc main_arg7) = m ((c.tc : Thread nD τ).loc main_arg7) :=
  upTo7 m ρ c main_arg7 (by decide) (by decide) (by decide) (by decide) (by untouched) (by untouched) (by untouched)

/-- The third bias, at the fourth stretch's entry. -/
theorem arg8_at8 : W8 m ρ c (Proc.devRef .tc main_arg8) = m ((c.tc : Thread nD τ).loc main_arg8) :=
  upTo8 m ρ c main_arg8 (by decide) (by decide) (by decide) (by decide) (by decide) (by untouched) (by untouched) (by untouched)

/-- The graph ids and the head's bias, at the last stretch's entry. -/
theorem arg2_at10 : W10 m ρ c (Proc.devRef .tc main_arg2) = m ((c.tc : Thread nD τ).loc main_arg2) :=
  upTo10 m ρ c main_arg2 (by decide) (by decide) (by decide) (by decide) (by decide) (by decide)
    (by untouched) (by untouched) (by untouched) (by untouched)
theorem arg10_at10 : W10 m ρ c (Proc.devRef .tc main_arg10) = m ((c.tc : Thread nD τ).loc main_arg10) :=
  upTo10 m ρ c main_arg10 (by decide) (by decide) (by decide) (by decide) (by decide) (by decide)
    (by untouched) (by untouched) (by untouched) (by untouched)

/-- The head's weight matrix, at the last region's entry. -/
theorem arg9_at11 : W11 m ρ c (Proc.devRef .tc main_arg9) = m ((c.tc : Thread nD τ).loc main_arg9) :=
  upTo11 m ρ c main_arg9 (by decide) (by decide) (by decide) (by decide) (by decide) (by decide)
    (by untouched) (by untouched) (by untouched) (by untouched) (by untouched)

/-- The source ids, the destination ids and the edge weights (computed by the first stretch), at each layer's stretch. -/
theorem src_at2 : W2 m ρ c (Proc.devRef .tc main_v3) = W1 m ρ c (Proc.devRef .tc main_v3) := keep2 m ρ c main_v3 (by decide)
theorem dst_at2 : W2 m ρ c (Proc.devRef .tc main_v6) = W1 m ρ c (Proc.devRef .tc main_v6) := keep2 m ρ c main_v6 (by decide)
theorem wgt_at2 : W2 m ρ c (Proc.devRef .tc main_v27) = W1 m ρ c (Proc.devRef .tc main_v27) := keep2 m ρ c main_v27 (by decide)
theorem src_at5 : W5 m ρ c (Proc.devRef .tc main_v3) = W1 m ρ c (Proc.devRef .tc main_v3) :=
  keep5 m ρ c main_v3 (by decide) (by decide) (by decide) (by untouched)
theorem dst_at5 : W5 m ρ c (Proc.devRef .tc main_v6) = W1 m ρ c (Proc.devRef .tc main_v6) :=
  keep5 m ρ c main_v6 (by decide) (by decide) (by decide) (by untouched)
theorem wgt_at5 : W5 m ρ c (Proc.devRef .tc main_v27) = W1 m ρ c (Proc.devRef .tc main_v27) :=
  keep5 m ρ c main_v27 (by decide) (by decide) (by decide) (by untouched)
theorem src_at8 : W8 m ρ c (Proc.devRef .tc main_v3) = W1 m ρ c (Proc.devRef .tc main_v3) :=
  keep8 m ρ c main_v3 (by decide) (by decide) (by decide) (by decide) (by decide) (by untouched) (by untouched)
theorem dst_at8 : W8 m ρ c (Proc.devRef .tc main_v6) = W1 m ρ c (Proc.devRef .tc main_v6) :=
  keep8 m ρ c main_v6 (by decide) (by decide) (by decide) (by decide) (by decide) (by untouched) (by untouched)
theorem wgt_at8 : W8 m ρ c (Proc.devRef .tc main_v27) = W1 m ρ c (Proc.devRef .tc main_v27) :=
  keep8 m ρ c main_v27 (by decide) (by decide) (by decide) (by decide) (by decide) (by untouched) (by untouched)

end Cert.KernelIdeal.Carry

end
-- ==== Proof.Stretch0.lean ====
/-
  The edge lists and the edge weights.

  From the edge index array alone the first host stretch builds three arrays that every layer then reads: the source
  ids (each edge's source, followed by every node's own id — the self loops), the destination ids likewise, and for
  every edge the weight 1/sqrt(deg(source)) · 1/sqrt(deg(destination)), deg counting the edges that arrive at a node.
  The other program builds them with the same operations in the same order. So what the first boundary of the chain
  holds in those three buffers is, as a function of the edge index array, exactly the stage the other program's run
  names there: the operations are compared one against one, none of them is opened.
-/
import proofs.«102946_j54863912239540_1_alg».proof.Proof.Gen.KernelIdeal.Frame
import proofs.«102946_j54863912239540_1_alg».proof.Proof.Gen.ReferenceIdeal.Read

set_option maxRecDepth 16384

noncomputable section

namespace Cert.KernelIdeal.Stretch0

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-- The source ids with the self loops appended. -/
theorem src : W1 m ρ c (Proc.devRef .tc main_v3) = val_main_v3 (F := Ideal) (m ((c.tc : Thread nD τ).loc main_arg1)) := by
  show StableHlo.after hostOps0 (W0 m ρ c) (Proc.devRef .tc main_v3) = _
  after_results_simp
  rfl

/-- The destination ids with the self loops appended. -/
theorem dst : W1 m ρ c (Proc.devRef .tc main_v6) = val_main_v6 (F := Ideal) (m ((c.tc : Thread nD τ).loc main_arg1)) := by
  show StableHlo.after hostOps0 (W0 m ρ c) (Proc.devRef .tc main_v6) = _
  after_results_simp
  rfl

/-- The edge weights, as a column. -/
theorem wgt : W1 m ρ c (Proc.devRef .tc main_v27) = val_main_v27 (F := Ideal) (m ((c.tc : Thread nD τ).loc main_arg1)) := by
  show StableHlo.after hostOps0 (W0 m ρ c) (Proc.devRef .tc main_v27) = _
  after_results_simp
  rfl

end Cert.KernelIdeal.Stretch0

end
-- ==== Proof.Spec.lean ====
/-
  What each on-chip stage of the network computes, as plain functions of arrays over the extended reals.

  A graph-convolution layer is: a dense product h · W (each entry a sum of 64 products), a neighbourhood
  aggregation done by host gathers and scatter-adds (not described here: both programs perform it with the very same
  operations), then a bias row added to every row and, in the first two layers, a clamp below at zero. The head is
  one more dense product plus a bias row. Every function below is stated entry by entry.
-/
import Idealize.ShloMosaic.Lib.ValueIdx
import Idealize.ShloMosaic.PureOps.Ideal.Laws

noncomputable section

namespace Cert.Spec

open Idealize.ShloMosaic Idealize.ShloMosaic.ValueIdx

variable {M K N : ℕ}

/-- Entry (p, q) of the product x · w: row p of x against column q of w. -/
def dotAt (x : (⟨2, ![M, K]⟩ : Shape).Idx → EReal) (w : (⟨2, ![K, N]⟩ : Shape).Idx → EReal) (p : Fin M) (q : Fin N) : EReal :=
  ∑ k : Fin K, x (ix2 p k) * w (ix2 k q)

/-- The product x · w. -/
def dense (x : (⟨2, ![M, K]⟩ : Shape).Idx → EReal) (w : (⟨2, ![K, N]⟩ : Shape).Idx → EReal) : (⟨2, ![M, N]⟩ : Shape).Idx → EReal :=
  fun i => dotAt x w (i 0) (i 1)

/-- x with the row b (kept as a [1, N] array) added to each of its rows. -/
def addRow (x : (⟨2, ![M, N]⟩ : Shape).Idx → EReal) (b : (⟨2, ![1, N]⟩ : Shape).Idx → EReal) : (⟨2, ![M, N]⟩ : Shape).Idx → EReal :=
  fun i => x i + b (ix2 (0 : Fin 1) (i 1))

/-- x with the row b added to each row, then clamped below at the float zero. -/
def addRowRelu (x : (⟨2, ![M, N]⟩ : Shape).Idx → EReal) (b : (⟨2, ![1, N]⟩ : Shape).Idx → EReal) : (⟨2, ![M, N]⟩ : Shape).Idx → EReal :=
  fun i => max (x i + b (ix2 (0 : Fin 1) (i 1))) (Ideal.ofBits .f32 0x00000000#32)

/-- The head: the product p · w with the row b added to each row. -/
def head (p : (⟨2, ![M, K]⟩ : Shape).Idx → EReal) (w : (⟨2, ![K, N]⟩ : Shape).Idx → EReal) (b : (⟨2, ![1, N]⟩ : Shape).Idx → EReal) :
    (⟨2, ![M, N]⟩ : Shape).Idx → EReal :=
  fun i => dotAt p w (i 0) (i 1) + b (ix2 (0 : Fin 1) (i 1))

theorem dense_apply (x : (⟨2, ![M, K]⟩ : Shape).Idx → EReal) (w : (⟨2, ![K, N]⟩ : Shape).Idx → EReal) (p : Fin M) (q : Fin N) :
    dense x w (ix2 p q) = ∑ k : Fin K, x (ix2 p k) * w (ix2 k q) := rfl

theorem addRow_apply (x : (⟨2, ![M, N]⟩ : Shape).Idx → EReal) (b : (⟨2, ![1, N]⟩ : Shape).Idx → EReal) (p : Fin M) (q : Fin N) :
    addRow x b (ix2 p q) = x (ix2 p q) + b (ix2 (0 : Fin 1) q) := rfl

theorem addRowRelu_apply (x : (⟨2, ![M, N]⟩ : Shape).Idx → EReal) (b : (⟨2, ![1, N]⟩ : Shape).Idx → EReal) (p : Fin M) (q : Fin N) :
    addRowRelu x b (ix2 p q) = max (x (ix2 p q) + b (ix2 (0 : Fin 1) q)) (Ideal.ofBits .f32 0x00000000#32) := rfl

theorem head_apply (p : (⟨2, ![M, K]⟩ : Shape).Idx → EReal) (w : (⟨2, ![K, N]⟩ : Shape).Idx → EReal) (b : (⟨2, ![1, N]⟩ : Shape).Idx → EReal)
    (r : Fin M) (q : Fin N) :
    head p w b (ix2 r q) = (∑ k : Fin K, p (ix2 r k) * w (ix2 k q)) + b (ix2 (0 : Fin 1) q) := rfl

end Cert.Spec

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Dense0.lean ====
/-
  The first dense stage. The region runs over ten grid points; point t takes rows 5000 t … 5000 t + 4999 of the
  [50000, 64] left operand and the whole [64, 64] weight, and stores into rows 5000 t … 5000 t + 4999 of the result
  the product of the two blocks accumulated from zero. Entry (p, q) of that block is the sum over k of the row
  block's entry (p, k) times the weight's entry (k, q), which is entry (5000 t + p, q) of the product of the two
  whole arrays. The ten row blocks tile the result array, so after the region it holds the product.
-/
import proofs.«102946_j54863912239540_1_alg».proof.Proof.Gen.KernelIdeal.Frame
import proofs.«102946_j54863912239540_1_alg».proof.Proof.Spec
import proofs.«102946_j54863912239540_1_alg».proof.Proof.LibPlainDot
import Idealize.ShloMosaic.Lib.Pipeline.Value
import Idealize.ShloMosaic.Lib.ValueIdx

noncomputable section

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)

/-- The printed dimension record of the product is the plain one: rows of the left operand against columns of the right. -/
theorem dims_plain : dot_S5000x64_S64x64_S5000x64_1_0_0_1_n_n = DotDims.plain 5000 64 64 := rfl

theorem zero_offsets : (![0, 0] : Fin 2 → Nat) = fun _ => 0 := funext fun a => by fin_cases a <;> rfl

/-- What the body stores, at row p and column q of its block: the sum over k of the row block's entry (p, k)
    times the weight's entry (k, q). The two changes of float format are the identity on extended reals, and the
    accumulator starts at zero. -/
theorem stored_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact Cert.PlainDot.matmul_zero_apply (M := 5000) (K := 64) (N := 64) dot_S5000x64_S64x64_S5000x64_1_0_0_1_n_n dims_plain none
    (truncf .bf16 x0 bitsLt_bf16_f32) (truncf .bf16 x1 bitsLt_bf16_f32) p q

/-- The block indices at the ten grid points: point t takes row block t of the left operand and of the result,
    and the whole weight. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

/-- Entry (p, k) of row block t of the left operand is entry (5000 t + p, k) of the array. -/
theorem lhs_block (t : Fin cfg0.N) (p : Fin 5000) (k : Fin 64) (r : Fin 50000) (hr : r.val = 5000 * t.val + p.val) :
    (iblk0 V c 0 t : Vec Ideal S5000x64 .f32) (ix2 p k) = (V c main_arg0 : S50000x64.Idx → EReal) (ix2 r k) := by
  obtain ⟨e0, e1, -⟩ := block_indices t
  unfold iblk0
  rw [View.read_apply]
  show V c main_arg0 (((cfg0.win 0).blk t).view.emb (ix2 p k)) = V c main_arg0 (ix2 r k)
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weight's block at every point is the whole weight. -/
theorem rhs_block (t : Fin cfg0.N) (k : Fin 64) (q : Fin 64) :
    (iblk0 V c 1 t : Vec Ideal S64x64 .f32) (ix2 k q) = (V c main_arg3 : S64x64.Idx → EReal) (ix2 k q) := by
  obtain ⟨-, -, e2, e3, -⟩ := block_indices t
  unfold iblk0
  rw [View.read_apply]
  show V c main_arg3 (((cfg0.win 1).blk t).view.emb (ix2 k q)) = V c main_arg3 (ix2 k q)
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- Entry (p, q) of the result's block t sits at row 5000 t + p, column q of the result array. -/
theorem out_block_index (t : Fin cfg0.N) (p : Fin 5000) (q : Fin 64) :
    ∃ r : Fin 50000, r.val = 5000 * t.val + p.val ∧ ((cfg0.win 2).blk t).view.emb (ix2 p q) = ix2 r q := by
  obtain ⟨-, -, -, -, e4, e5⟩ := block_indices t
  have ht : t.val < 10 := t.isLt
  refine ⟨⟨5000 * t.val + p.val, by omega⟩, rfl, ?_⟩
  funext a
  apply Fin.ext
  match a with
  | ⟨0, _⟩ => show win0_2.index t (0 : Fin 2) * 5000 + 1 * p.val = 5000 * t.val + p.val; rw [e4]; omega
  | ⟨1, _⟩ => show win0_2.index t (1 : Fin 2) * 64 + 1 * q.val = q.val; rw [e5]; omega

/-- What point t writes back is block t of the product of the two arrays. -/
theorem flushed_eq (t : Fin cfg0.N) :
    (dat0 (F := Ideal) V c).flushed 2 t
      = ((cfg0.win 2).blk t).view.read (Elt Ideal)
          (Cert.Spec.dense (M := 50000) (K := 64) (N := 64) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  refine funext fun (j : S5000x64.Idx) => ?_
  obtain ⟨p, q, rfl⟩ : ∃ (p : Fin 5000) (q : Fin 64), j = ix2 p q := ⟨j 0, j 1, eq_ix2 j⟩
  refine Eq.trans ?_ (View.read_apply _ _).symm
  obtain ⟨r, hr, he⟩ := out_block_index t p q
  show k0_pay1 (iblk0 V c 0 t) (iblk0 V c 1 t) (ix2 p q)
    = Cert.Spec.dense (M := 50000) (K := 64) (N := 64) (V c main_arg0) (V c main_arg3) (((cfg0.win 2).blk t).view.emb (ix2 p q))
  rw [he, Cert.Spec.dense_apply]
  refine (stored_apply (iblk0 V c 0 t) (iblk0 V c 1 t) p q).trans ?_
  refine Finset.sum_congr rfl fun k _ => ?_
  rw [lhs_block V c t p k r hr, rhs_block V c t k q]

/-- Every row of the result array lies in the block of the point numbered by the row's quotient by 5000. -/
theorem covered (i : S50000x64.Idx) :
    ∃ t : Fin cfg0.N, (cfg0.win 2).flush t = true ∧ i ∈ ((cfg0.win 2).blk t).view.set := by
  have h0 : (i 0).val < 50000 := (i 0).isLt
  have h1 : (i 1).val < 64 := (i 1).isLt
  have hq : (i 0).val / 5000 < 10 := by omega
  refine ⟨⟨(i 0).val / 5000, hq⟩, flush0_2 _, ?_⟩
  obtain ⟨-, -, -, -, e4, e5⟩ := block_indices ⟨(i 0).val / 5000, hq⟩
  show i ∈ ((View.whole main_v28).slice (win0_2.rect ⟨(i 0).val / 5000, hq⟩)).set
  rw [View.set_slice_whole, Rect.mem_set_unit]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hq⟩ (1 : Fin 2) * 64 ≤ (i 1).val
      ∧ (i 1).val < win0_2.index ⟨(i 0).val / 5000, hq⟩ (1 : Fin 2) * 64 + 64
    rw [e5]
    omega

/-- The result array after the region: the product of the left operand and the weight, as the region finds them. -/
theorem arr : (Gen.dat0 (F := Ideal) V c).arrAt 2 cfg0.N
    = Cert.Spec.dense (M := 50000) (K := 64) (N := 64) (V c main_arg0) (V c main_arg3) :=
  (dat0 (F := Ideal) V c).arrAt_eq_of_cover 2 _ (fun t _ => flushed_eq V c t) (covered)

end Cert.KernelIdeal.Dense0

end
-- ==== Proof.Bias1.lean ====
/-
  The bias stage of the first layer. The [50000, 64] array x (%40) is cut into ten blocks of 5000 rows; the
  [1, 64] bias row b (%41) is seen whole at every block. At each block the body adds b to every row and clamps the sum
  below at zero. Read entry by entry, the array the ten write-backs leave is therefore
      (r, q) ↦ max (x (r, q) + b (0, q)) 0,
  because the blocks tile the rows (row r is row r mod 5000 of block r / 5000) and the columns are not cut.
-/
import proofs.«102946_j54863912239540_1_alg».proof.Proof.Gen.KernelIdeal.Frame
import proofs.«102946_j54863912239540_1_alg».proof.Proof.Spec
import Idealize.ShloMosaic.Lib.Pipeline.Value
import Idealize.ShloMosaic.Lib.ValueIdx

noncomputable section

namespace Cert.KernelIdeal.Bias1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The zero offsets of a whole-buffer access, as a constant function. -/
theorem zero_off : (![0, 0] : Fin 2 → Nat) = fun _ => 0 := funext fun a => by fin_cases a <;> rfl

/-- One entry of the block the body stores: the entry of the row block plus the bias row's entry of the same column,
    clamped below at zero. The two same-shape casts are identities, and the row is repeated down the 5000 rows. -/
theorem block_entry (x0 : Vec Ideal S5000x64 .f32) (x1 : Vec Ideal S1x64 .f32) (p : Fin 5000) (q : Fin 64) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, broadcast_apply, shapeCast_self, shapeCast_self,
    broadcastTo_apply x1 broadcasts_S1x64_S5000x64 (ix2 p q) (ix2 (0 : Fin 1) q) (fun a => by
      match a with
      | ⟨0, _⟩ => rfl
      | ⟨1, _⟩ => rfl)]
  rfl

/-- The specification at an array index whose column is q. -/
theorem spec_entry (a : S50000x64.Idx → EReal) (b : S1x64.Idx → EReal) (k : S50000x64.Idx) (q : Fin 64)
    (hk : (k 1).val = q.val) :
    Cert.Spec.addRowRelu (M := 50000) (N := 64) a b k = max (a k + b (ix2 (0 : Fin 1) q)) (Ideal.ofBits .f32 0x00000000#32) := by
  have e : (k 1 : Fin 64) = q := Fin.ext hk
  unfold Cert.Spec.addRowRelu
  exact congrArg (fun z : Fin 64 => max (a k + b (ix2 (0 : Fin 1) z)) (Ideal.ofBits .f32 0x00000000#32)) e

/-- The index maps, decided over the ten grid points: at point t the input row block and the output row block
    are both block (t, 0) of their arrays, and the bias row's block is always block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input row block at point t reads the array exactly where the output block of point t will be written. -/
theorem rows_block (t : Fin cfg1.N) (y : S5000x64.Idx) :
    iblk1 V c 0 t y = V c main_v40 (((cfg1.win 2).blk t).view.emb y) := by
  obtain ⟨e0, e1, e2, e3, e4, e5⟩ := block_indices t
  show V c main_v40 (((cfg1.win 0).blk t).view.emb y) = V c main_v40 (((cfg1.win 2).blk t).view.emb y)
  refine congrArg (V c main_v40) (funext fun a => Fin.ext ?_)
  match a with
  | ⟨0, _⟩ =>
    show win1_0.index t (0 : Fin 2) * 5000 + 1 * (y 0).val = win1_2.index t (0 : Fin 2) * 5000 + 1 * (y 0).val
    omega
  | ⟨1, _⟩ =>
    show win1_0.index t (1 : Fin 2) * 64 + 1 * (y 1).val = win1_2.index t (1 : Fin 2) * 64 + 1 * (y 1).val
    omega

/-- The bias window's block is the whole [1, 64] row at every point. -/
theorem bias_block (t : Fin cfg1.N) (y : S1x64.Idx) : iblk1 V c 1 t y = V c main_v41 y := by
  obtain ⟨e0, e1, e2, e3, e4, e5⟩ := block_indices t
  show V c main_v41 (((cfg1.win 1).blk t).view.emb y) = V c main_v41 y
  refine congrArg (V c main_v41) (funext fun a => Fin.ext ?_)
  match a with
  | ⟨0, _⟩ =>
    show win1_1.index t (0 : Fin 2) * 1 + 1 * (y 0).val = (y 0).val
    omega
  | ⟨1, _⟩ =>
    show win1_1.index t (1 : Fin 2) * 64 + 1 * (y 1).val = (y 1).val
    omega

/-- Columns are not cut: an entry of the output block keeps its column in the array. -/
theorem out_column (t : Fin cfg1.N) (y : S5000x64.Idx) :
    ((((cfg1.win 2).blk t).view.emb y) 1).val = (y 1).val := by
  obtain ⟨e0, e1, e2, e3, e4, e5⟩ := block_indices t
  show win1_2.index t (1 : Fin 2) * 64 + 1 * (y 1).val = (y 1).val
  omega

/-- What point t writes back is block t of the specified array. -/
theorem written_block (t : Fin cfg1.N) :
    (dat1 (F := Ideal) V c).flushed 2 t
      = ((cfg1.win 2).blk t).view.read (Elt Ideal) (Cert.Spec.addRowRelu (M := 50000) (N := 64) (V c main_v40) (V c main_v41)) := by
  show (cfg1.win 2).cut (grid1.coords t) ((dat1 V c).after 2 t) = _
  rw [after1_2]
  unfold out1_2
  rw [View.canon_unit_zero zero_off]
  simp only [View.ld_unit_zero (S := S5000x64) zero_off, View.ld_unit_zero (S := S1x64) zero_off]
  funext j
  obtain ⟨p, q, rfl⟩ : ∃ (p : Fin 5000) (q : Fin 64), j = ix2 p q := ⟨j 0, j 1, eq_ix2 j⟩
  show k1_pay1 (iblk1 V c 0 t) (iblk1 V c 1 t) (ix2 p q)
    = Cert.Spec.addRowRelu (M := 50000) (N := 64) (V c main_v40) (V c main_v41) (((cfg1.win 2).blk t).view.emb (ix2 p q))
  refine (block_entry (iblk1 V c 0 t) (iblk1 V c 1 t) p q).trans ?_
  rw [rows_block V c t (ix2 p q), bias_block V c t (ix2 (0 : Fin 1) q)]
  exact (spec_entry (V c main_v40) (V c main_v41) _ q (out_column t (ix2 p q))).symm

/-- An index of the array lies in point t's output block iff each coordinate lies in the block's range on its axis. -/
theorem mem_block (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v42).slice (win1_2.rect t)).set ↔ _
  rw [View.set_slice_whole, Rect.mem_set_unit]
  exact Iff.rfl

/-- The ten row blocks tile the array: row r lies in block r / 5000. -/
theorem blocks_cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨e0, e1, e2, e3, e4, e5⟩ := block_indices t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- The array after the ten write-backs is the specified one. -/
theorem arr : (dat1 (F := Ideal) V c).arrAt 2 cfg1.N
    = Cert.Spec.addRowRelu (M := 50000) (N := 64) (V c main_v40) (V c main_v41) :=
  (dat1 (F := Ideal) V c).arrAt_eq_of_cover 2 _ (fun t _ => written_block V c t) blocks_cover

end Cert.KernelIdeal.Bias1

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.Layer1.lean ====
/-
  The first layer, level by level, against the other program's stages.

  A layer is: the dense product h · W on chip; then on the host, for every edge, the product's row at the edge's source
  scaled by the edge weight and added into the row of the edge's destination; then on chip the bias row added to every
  row and the result clamped below at zero. The other program computes the product with one whole dot_general, the
  aggregation with the very same host operations, and the bias and the clamp with whole-array operations. Each lemma
  below takes what the chain's boundary holds in the buffers a level reads (as hypotheses, so that it does not matter
  how they were obtained) and concludes what the next boundary holds in the buffer the level writes: the other
  program's stage of the same name. The product meets the dot_general entry by entry in one sum of 64 products; the
  aggregation is never opened; the bias and the clamp agree entry by entry as written.
-/
import proofs.«102946_j54863912239540_1_alg».proof.Proof.Gen.KernelIdeal.Frame
import proofs.«102946_j54863912239540_1_alg».proof.Proof.Gen.ReferenceIdeal.Read
import proofs.«102946_j54863912239540_1_alg».proof.Proof.Spec
import proofs.«102946_j54863912239540_1_alg».proof.Proof.Dense0
import proofs.«102946_j54863912239540_1_alg».proof.Proof.Bias1
import proofs.«102946_j54863912239540_1_alg».proof.Proof.LibRowVector

set_option maxRecDepth 16384

noncomputable section

namespace Cert.KernelIdeal.Layer1

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)
variable (x0 : (⟨S50000x64, .f32⟩ : BufTy).Contents (Elt Ideal)) (x1 : (⟨S2x800000, .i32⟩ : BufTy).Contents (Elt Ideal))
  (x3 : (⟨S64x64, .f32⟩ : BufTy).Contents (Elt Ideal)) (x4 : (⟨S64, .f32⟩ : BufTy).Contents (Elt Ideal))

/-- The product of the node features with the first weight matrix: what the first region leaves in its output array is
    the whole dot_general, entry (p, q) of either being the sum over k of feature (p, k) times weight (k, q). -/
theorem product (ha : W1 m ρ c (Proc.devRef .tc main_arg0) = x0) (hw : W1 m ρ c (Proc.devRef .tc main_arg3) = x3) :
    W2 m ρ c (Proc.devRef .tc main_v28) = val_main_v28 (F := Ideal) x0 x3 := by
  refine (W2_arr m ρ c 2).trans ?_
  rw [Dense0.arr (V1 m ρ) c]
  show Cert.Spec.dense (M := 50000) (K := 64) (N := 64) (W1 m ρ c (Proc.devRef .tc main_arg0)) (W1 m ρ c (Proc.devRef .tc main_arg3)) = _
  rw [ha, hw]
  funext i
  obtain ⟨p, q, rfl⟩ : ∃ (p : Fin 50000) (q : Fin 64), i = ix2 p q := ⟨i 0, i 1, eq_ix2 i⟩
  rw [Cert.Spec.dense_apply, val_main_v28_apply]
  refine Finset.sum_congr rfl fun k _ => ?_
  have el : lidx_main_v28 (ix2 p q) k = ix2 p k :=
    funext fun a => Fin.ext (by match a with | ⟨0, _⟩ => rfl | ⟨1, _⟩ => rfl)
  have er : ridx_main_v28 (ix2 p q) k = ix2 k q :=
    funext fun a => Fin.ext (by match a with | ⟨0, _⟩ => rfl | ⟨1, _⟩ => rfl)
  rw [el, er]

/-- The aggregation over the edges: the same host operations on both sides, applied to equal products, equal edge
    lists and equal edge weights. -/
theorem aggregated (hp : W2 m ρ c (Proc.devRef .tc main_v28) = val_main_v28 (F := Ideal) x0 x3)
    (hs : W2 m ρ c (Proc.devRef .tc main_v3) = val_main_v3 (F := Ideal) x1)
    (hd : W2 m ρ c (Proc.devRef .tc main_v6) = val_main_v6 (F := Ideal) x1)
    (hg : W2 m ρ c (Proc.devRef .tc main_v27) = val_main_v27 (F := Ideal) x1) :
    W3 m ρ c (Proc.devRef .tc main_v40) = val_main_v40 (F := Ideal) x0 x1 x3 := by
  show StableHlo.after hostOps1 (W2 m ρ c) (Proc.devRef .tc main_v40) = _
  after_results_simp
  rw [hp, hs, hd, hg]
  rfl

/-- The bias laid out as a row: a reshape on one side, a broadcast along the second axis on the other. -/
theorem biasRow (hb : W2 m ρ c (Proc.devRef .tc main_arg4) = x4) :
    W3 m ρ c (Proc.devRef .tc main_v41) = val_main_v41 (F := Ideal) x4 := by
  show StableHlo.after hostOps1 (W2 m ρ c) (Proc.devRef .tc main_v41) = _
  after_results_simp
  rw [hb]
  exact Cert.RowVector.reshape_eq_broadcast (n := 64) x4 _ _

/-- The bias added and the clamp at zero: what the second region leaves in its output array is the other program's
    maximum of (aggregate + bias) and zero, entry by entry. -/
theorem activated (hagg : W3 m ρ c (Proc.devRef .tc main_v40) = val_main_v40 (F := Ideal) x0 x1 x3)
    (hrow : W3 m ρ c (Proc.devRef .tc main_v41) = val_main_v41 (F := Ideal) x4) :
    W4 m ρ c (Proc.devRef .tc main_v42) = val_main_v44 (F := Ideal) x0 x1 x3 x4 := by
  refine (W4_arr m ρ c 2).trans ?_
  rw [Bias1.arr (V3 m ρ) c]
  show Cert.Spec.addRowRelu (M := 50000) (N := 64) (W3 m ρ c (Proc.devRef .tc main_v40)) (W3 m ρ c (Proc.devRef .tc main_v41)) = _
  rw [hagg, hrow]
  funext i
  obtain ⟨p, q, rfl⟩ : ∃ (p : Fin 50000) (q : Fin 64), i = ix2 p q := ⟨i 0, i 1, eq_ix2 i⟩
  rw [Cert.Spec.addRowRelu_apply, val_main_v44_apply, val_main_v43_apply, val_main_v42_apply, val_main_call0_v0_apply,
    val_main_call0_cst_apply]
  have e : idx_main_v42 (ix2 p q) = ix2 (0 : Fin 1) q :=
    funext fun a => Fin.ext (by match a with | ⟨0, _⟩ => rfl | ⟨1, _⟩ => rfl)
  rw [e]
  rfl

end Cert.KernelIdeal.Layer1

end
-- ==== Proof.Dense2.lean ====
/-
  The second dense stage. The region runs over ten grid points; point t takes rows 5000 t … 5000 t + 4999 of the
  [50000, 64] left operand and the whole [64, 64] weight, and stores into rows 5000 t … 5000 t + 4999 of the result
  the product of the two blocks accumulated from zero. Entry (p, q) of that block is the sum over k of the row
  block's entry (p, k) times the weight's entry (k, q), which is entry (5000 t + p, q) of the product of the two
  whole arrays. The ten row blocks tile the result array, so after the region it holds the product.
-/
import proofs.«102946_j54863912239540_1_alg».proof.Proof.Gen.KernelIdeal.Frame
import proofs.«102946_j54863912239540_1_alg».proof.Proof.Spec
import proofs.«102946_j54863912239540_1_alg».proof.Proof.LibPlainDot
import Idealize.ShloMosaic.Lib.Pipeline.Value
import Idealize.ShloMosaic.Lib.ValueIdx

noncomputable section

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)

/-- The printed dimension record of the product is the plain one: rows of the left operand against columns of the right. -/
theorem dims_plain : dot_S5000x64_S64x64_S5000x64_1_0_0_1_n_n = DotDims.plain 5000 64 64 := rfl

theorem zero_offsets : (![0, 0] : Fin 2 → Nat) = fun _ => 0 := funext fun a => by fin_cases a <;> rfl

/-- What the body stores, at row p and column q of its block: the sum over k of the row block's entry (p, k)
    times the weight's entry (k, q). The cast to the same shape and the two changes of float format are the identity on
    extended reals, and the accumulator starts at zero. -/
theorem stored_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  exact Cert.PlainDot.matmul_zero_apply (M := 5000) (K := 64) (N := 64) dot_S5000x64_S64x64_S5000x64_1_0_0_1_n_n dims_plain none
    (truncf .bf16 x0 bitsLt_bf16_f32) (truncf .bf16 x1 bitsLt_bf16_f32) p q

/-- The block indices at the ten grid points: point t takes row block t of the left operand and of the result,
    and the whole weight. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b)) (c : Dev nD)

/-- Entry (p, k) of row block t of the left operand is entry (5000 t + p, k) of the array. -/
theorem lhs_block (t : Fin cfg2.N) (p : Fin 5000) (k : Fin 64) (r : Fin 50000) (hr : r.val = 5000 * t.val + p.val) :
    (iblk2 V c 0 t : Vec Ideal S5000x64 .f32) (ix2 p k) = (V c main_v42 : S50000x64.Idx → EReal) (ix2 r k) := by
  obtain ⟨e0, e1, -⟩ := block_indices t
  unfold iblk2
  rw [View.read_apply]
  show V c main_v42 (((cfg2.win 0).blk t).view.emb (ix2 p k)) = V c main_v42 (ix2 r k)
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The weight's block at every point is the whole weight. -/
theorem rhs_block (t : Fin cfg2.N) (k : Fin 64) (q : Fin 64) :
    (iblk2 V c 1 t : Vec Ideal S64x64 .f32) (ix2 k q) = (V c main_arg5 : S64x64.Idx → EReal) (ix2 k q) := by
  obtain ⟨-, -, e2, e3, -⟩ := block_indices t
  unfold iblk2
  rw [View.read_apply]
  show V c main_arg5 (((cfg2.win 1).blk t).view.emb (ix2 k q)) = V c main_arg5 (ix2 k q)
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- Entry (p, q) of the result's block t sits at row 5000 t + p, column q of the result array. -/
theorem out_block_index (t : Fin cfg2.N) (p : Fin 5000) (q : Fin 64) :
    ∃ r : Fin 50000, r.val = 5000 * t.val + p.val ∧ ((cfg2.win 2).blk t).view.emb (ix2 p q) = ix2 r q := by
  obtain ⟨-, -, -, -, e4, e5⟩ := block_indices t
  have ht : t.val < 10 := t.isLt
  refine ⟨⟨5000 * t.val + p.val, by omega⟩, rfl, ?_⟩
  funext a
  apply Fin.ext
  match a with
  | ⟨0, _⟩ => show win2_2.index t (0 : Fin 2) * 5000 + 1 * p.val = 5000 * t.val + p.val; rw [e4]; omega
  | ⟨1, _⟩ => show win2_2.index t (1 : Fin 2) * 64 + 1 * q.val = q.val; rw [e5]; omega

/-- What point t writes back is block t of the product of the two arrays. -/
theorem flushed_eq (t : Fin cfg2.N) :
    (dat2 (F := Ideal) V c).flushed 2 t
      = ((cfg2.win 2).blk t).view.read (Elt Ideal)
          (Cert.Spec.dense (M := 50000) (K := 64) (N := 64) (V c main_v42) (V c main_arg5)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  refine funext fun (j : S5000x64.Idx) => ?_
  obtain ⟨p, q, rfl⟩ : ∃ (p : Fin 5000) (q : Fin 64), j = ix2 p q := ⟨j 0, j 1, eq_ix2 j⟩
  refine Eq.trans ?_ (View.read_apply _ _).symm
  obtain ⟨r, hr, he⟩ := out_block_index t p q
  show k2_pay1 (iblk2 V c 0 t) (iblk2 V c 1 t) (ix2 p q)
    = Cert.Spec.dense (M := 50000) (K := 64) (N := 64) (V c main_v42) (V c main_arg5) (((cfg2.win 2).blk t).view.emb (ix2 p q))
  rw [he, Cert.Spec.dense_apply]
  refine (stored_apply (iblk2 V c 0 t) (iblk2 V c 1 t) p q).trans ?_
  refine Finset.sum_congr rfl fun k _ => ?_
  rw [lhs_block V c t p k r hr, rhs_block V c t k q]

/-- Every row of the result array lies in the block of the point numbered by the row's quotient by 5000. -/
theorem covered (i : S50000x64.Idx) :
    ∃ t : Fin cfg2.N, (cfg2.win 2).flush t = true ∧ i ∈ ((cfg2.win 2).blk t).view.set := by
  have h0 : (i 0).val < 50000 := (i 0).isLt
  have h1 : (i 1).val < 64 := (i 1).isLt
  have hq : (i 0).val / 5000 < 10 := by omega
  refine ⟨⟨(i 0).val / 5000, hq⟩, flush2_2 _, ?_⟩
  obtain ⟨-, -, -, -, e4, e5⟩ := block_indices ⟨(i 0).val / 5000, hq⟩
  show i ∈ ((View.whole main_v43).slice (win2_2.rect ⟨(i 0).val / 5000, hq⟩)).set
  rw [View.set_slice_whole, Rect.mem_set_unit]
  intro a
  match a with
  | ⟨0, _⟩ =>
    show win2_2.index ⟨(i 0).val / 5000, hq⟩ (0 : Fin 2) * 5000 ≤ (i 0).val
      ∧ (i 0).val < win2_2.index ⟨(i 0).val / 5000, hq⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hq⟩ (1 : Fin 2) * 64 ≤ (i 1).val
      ∧ (i 1).val < win2_2.index ⟨(i 0).val / 5000, hq⟩ (1 : Fin 2) * 64 + 64
    rw [e5]
    omega

/-- The result array after the region: the product of the left operand and the weight, as the region finds them. -/
theorem arr : (Gen.dat2 (F := Ideal) V c).arrAt 2 cfg2.N
    = Cert.Spec.dense (M := 50000) (K := 64) (N := 64) (V c main_v42) (V c main_arg5) :=
  (dat2 (F := Ideal) V c).arrAt_eq_of_cover 2 _ (fun t _ => flushed_eq V c t) (covered)

end Cert.KernelIdeal.Dense2

end
-- ==== Proof.Bias3.lean ====
/-
  The bias stage of the second layer. The [50000, 64] array x (%55) is cut into ten blocks of 5000 rows; the
  [1, 64] bias row b (%56) is seen whole at every block. At each block the body adds b to every row and clamps the sum
  below at zero. Read entry by entry, the array the ten write-backs leave is therefore
      (r, q) ↦ max (x (r, q) + b (0, q)) 0,
  because the blocks tile the rows (row r is row r mod 5000 of block r / 5000) and the columns are not cut.
-/
import proofs.«102946_j54863912239540_1_alg».proof.Proof.Gen.KernelIdeal.Frame
import proofs.«102946_j54863912239540_1_alg».proof.Proof.Spec
import Idealize.ShloMosaic.Lib.Pipeline.Value
import Idealize.ShloMosaic.Lib.ValueIdx

noncomputable section

namespace Cert.KernelIdeal.Bias3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The zero offsets of a whole-buffer access, as a constant function. -/
theorem zero_off : (![0, 0] : Fin 2 → Nat) = fun _ => 0 := funext fun a => by fin_cases a <;> rfl

/-- One entry of the block the body stores: the entry of the row block plus the bias row's entry of the same column,
    clamped below at zero. The two same-shape casts are identities, and the row is repeated down the 5000 rows. -/
theorem block_entry (x0 : Vec Ideal S5000x64 .f32) (x1 : Vec Ideal S1x64 .f32) (p : Fin 5000) (q : Fin 64) :
    k3_pay1 (F := Ideal) x0 x1 (ix2 p q)
      = max (x0 (ix2 p q) + x1 (ix2 (0 : Fin 1) q)) (Ideal.ofBits .f32 0x00000000#32) := by
  unfold k3_pay1
  rw [maximumf_apply, addf_apply, broadcast_apply, shapeCast_self, shapeCast_self,
    broadcastTo_apply x1 broadcasts_S1x64_S5000x64 (ix2 p q) (ix2 (0 : Fin 1) q) (fun a => by
      match a with
      | ⟨0, _⟩ => rfl
      | ⟨1, _⟩ => rfl)]
  rfl

/-- The specification at an array index whose column is q. -/
theorem spec_entry (a : S50000x64.Idx → EReal) (b : S1x64.Idx → EReal) (k : S50000x64.Idx) (q : Fin 64)
    (hk : (k 1).val = q.val) :
    Cert.Spec.addRowRelu (M := 50000) (N := 64) a b k = max (a k + b (ix2 (0 : Fin 1) q)) (Ideal.ofBits .f32 0x00000000#32) := by
  have e : (k 1 : Fin 64) = q := Fin.ext hk
  unfold Cert.Spec.addRowRelu
  exact congrArg (fun z : Fin 64 => max (a k + b (ix2 (0 : Fin 1) z)) (Ideal.ofBits .f32 0x00000000#32)) e

/-- The index maps, decided over the ten grid points: at point t the input row block and the output row block
    are both block (t, 0) of their arrays, and the bias row's block is always block (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input row block at point t reads the array exactly where the output block of point t will be written. -/
theorem rows_block (t : Fin cfg3.N) (y : S5000x64.Idx) :
    iblk3 V c 0 t y = V c main_v55 (((cfg3.win 2).blk t).view.emb y) := by
  obtain ⟨e0, e1, e2, e3, e4, e5⟩ := block_indices t
  show V c main_v55 (((cfg3.win 0).blk t).view.emb y) = V c main_v55 (((cfg3.win 2).blk t).view.emb y)
  refine congrArg (V c main_v55) (funext fun a => Fin.ext ?_)
  match a with
  | ⟨0, _⟩ =>
    show win3_0.index t (0 : Fin 2) * 5000 + 1 * (y 0).val = win3_2.index t (0 : Fin 2) * 5000 + 1 * (y 0).val
    omega
  | ⟨1, _⟩ =>
    show win3_0.index t (1 : Fin 2) * 64 + 1 * (y 1).val = win3_2.index t (1 : Fin 2) * 64 + 1 * (y 1).val
    omega

/-- The bias window's block is the whole [1, 64] row at every point. -/
theorem bias_block (t : Fin cfg3.N) (y : S1x64.Idx) : iblk3 V c 1 t y = V c main_v56 y := by
  obtain ⟨e0, e1, e2, e3, e4, e5⟩ := block_indices t
  show V c main_v56 (((cfg3.win 1).blk t).view.emb y) = V c main_v56 y
  refine congrArg (V c main_v56) (funext fun a => Fin.ext ?_)
  match a with
  | ⟨0, _⟩ =>
    show win3_1.index t (0 : Fin 2) * 1 + 1 * (y 0).val = (y 0).val
    omega
  | ⟨1, _⟩ =>
    show win3_1.index t (1 : Fin 2) * 64 + 1 * (y 1).val = (y 1).val
    omega

/-- Columns are not cut: an entry of the output block keeps its column in the array. -/
theorem out_column (t : Fin cfg3.N) (y : S5000x64.Idx) :
    ((((cfg3.win 2).blk t).view.emb y) 1).val = (y 1).val := by
  obtain ⟨e0, e1, e2, e3, e4, e5⟩ := block_indices t
  show win3_2.index t (1 : Fin 2) * 64 + 1 * (y 1).val = (y 1).val
  omega

/-- What point t writes back is block t of the specified array. -/
theorem written_block (t : Fin cfg3.N) :
    (dat3 (F := Ideal) V c).flushed 2 t
      = ((cfg3.win 2).blk t).view.read (Elt Ideal) (Cert.Spec.addRowRelu (M := 50000) (N := 64) (V c main_v55) (V c main_v56)) := by
  show (cfg3.win 2).cut (grid3.coords t) ((dat3 V c).after 2 t) = _
  rw [after3_2]
  unfold out3_2
  rw [View.canon_unit_zero zero_off]
  simp only [View.ld_unit_zero (S := S5000x64) zero_off, View.ld_unit_zero (S := S1x64) zero_off]
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = Cert.Spec.addRowRelu (M := 50000) (N := 64) (V c main_v55) (V c main_v56) (((cfg3.win 2).blk t).view.emb (ix2 p q))
  refine (block_entry (iblk3 V c 0 t) (iblk3 V c 1 t) p q).trans ?_
  rw [rows_block V c t (ix2 p q), bias_block V c t (ix2 (0 : Fin 1) q)]
  exact (spec_entry (V c main_v55) (V c main_v56) _ q (out_column t (ix2 p q))).symm

/-- An index of the array lies in point t's output block iff each coordinate lies in the block's range on its axis. -/
theorem mem_block (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v57).slice (win3_2.rect t)).set ↔ _
  rw [View.set_slice_whole, Rect.mem_set_unit]
  exact Iff.rfl

/-- The ten row blocks tile the array: row r lies in block r / 5000. -/
theorem blocks_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨e0, e1, e2, e3, e4, e5⟩ := block_indices t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- The array after the ten write-backs is the specified one. -/
theorem arr : (dat3 (F := Ideal) V c).arrAt 2 cfg3.N
    = Cert.Spec.addRowRelu (M := 50000) (N := 64) (V c main_v55) (V c main_v56) :=
  (dat3 (F := Ideal) V c).arrAt_eq_of_cover 2 _ (fun t _ => written_block V c t) blocks_cover

end Cert.KernelIdeal.Bias3

end
-- ==== Proof.Layer2.lean ====
/-
  The second layer, level by level, against the other program's stages.

  The same four steps as in the first layer, one boundary of the chain further on: the dense product of the first
  layer's output with the second weight matrix (on chip, block by block; one whole dot_general on the other side), the
  aggregation over the edges by the same host operations, the bias laid out as a row, and the bias added and the clamp
  at zero. Each lemma takes what the boundary holds in the buffers its level reads and concludes what the next
  boundary holds in the buffer the level writes: the other program's stage of the same name.
-/
import proofs.«102946_j54863912239540_1_alg».proof.Proof.Gen.KernelIdeal.Frame
import proofs.«102946_j54863912239540_1_alg».proof.Proof.Gen.ReferenceIdeal.Read
import proofs.«102946_j54863912239540_1_alg».proof.Proof.Spec
import proofs.«102946_j54863912239540_1_alg».proof.Proof.Dense2
import proofs.«102946_j54863912239540_1_alg».proof.Proof.Bias3
import proofs.«102946_j54863912239540_1_alg».proof.Proof.LibRowVector

set_option maxRecDepth 16384

noncomputable section

namespace Cert.KernelIdeal.Layer2

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)
variable (x0 : (⟨S50000x64, .f32⟩ : BufTy).Contents (Elt Ideal)) (x1 : (⟨S2x800000, .i32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

/-- The product of the first layer's output with the second weight matrix: what the third region leaves in its output array is
    the whole dot_general, entry (p, q) of either being the sum over k of input (p, k) times weight (k, q). -/
theorem product (ha : W4 m ρ c (Proc.devRef .tc main_v42) = val_main_v44 (F := Ideal) x0 x1 x3 x4)
    (hw : W4 m ρ c (Proc.devRef .tc main_arg5) = x5) :
    W5 m ρ c (Proc.devRef .tc main_v43) = val_main_v45 (F := Ideal) x0 x1 x3 x4 x5 := by
  refine (W5_arr m ρ c 2).trans ?_
  rw [Dense2.arr (V4 m ρ) c]
  show Cert.Spec.dense (M := 50000) (K := 64) (N := 64) (W4 m ρ c (Proc.devRef .tc main_v42)) (W4 m ρ c (Proc.devRef .tc main_arg5)) = _
  rw [ha, hw]
  funext i
  obtain ⟨p, q, rfl⟩ : ∃ (p : Fin 50000) (q : Fin 64), i = ix2 p q := ⟨i 0, i 1, eq_ix2 i⟩
  rw [Cert.Spec.dense_apply, val_main_v45_apply]
  refine Finset.sum_congr rfl fun k _ => ?_
  have el : lidx_main_v45 (ix2 p q) k = ix2 p k :=
    funext fun a => Fin.ext (by match a with | ⟨0, _⟩ => rfl | ⟨1, _⟩ => rfl)
  have er : ridx_main_v45 (ix2 p q) k = ix2 k q :=
    funext fun a => Fin.ext (by match a with | ⟨0, _⟩ => rfl | ⟨1, _⟩ => rfl)
  rw [el, er]

/-- The aggregation over the edges: the same host operations on both sides, applied to equal products, equal edge
    lists and equal edge weights. -/
theorem aggregated (hp : W5 m ρ c (Proc.devRef .tc main_v43) = val_main_v45 (F := Ideal) x0 x1 x3 x4 x5)
    (hs : W5 m ρ c (Proc.devRef .tc main_v3) = val_main_v3 (F := Ideal) x1)
    (hd : W5 m ρ c (Proc.devRef .tc main_v6) = val_main_v6 (F := Ideal) x1)
    (hg : W5 m ρ c (Proc.devRef .tc main_v27) = val_main_v27 (F := Ideal) x1) :
    W6 m ρ c (Proc.devRef .tc main_v55) = val_main_v57 (F := Ideal) x0 x1 x3 x4 x5 := by
  show StableHlo.after hostOps3 (W5 m ρ c) (Proc.devRef .tc main_v55) = _
  after_results_simp
  rw [hp, hs, hd, hg]
  rfl

/-- The bias laid out as a row: a reshape on one side, a broadcast along the second axis on the other. -/
theorem biasRow (hb : W5 m ρ c (Proc.devRef .tc main_arg6) = x6) :
    W6 m ρ c (Proc.devRef .tc main_v56) = val_main_v58 (F := Ideal) x6 := by
  show StableHlo.after hostOps3 (W5 m ρ c) (Proc.devRef .tc main_v56) = _
  after_results_simp
  rw [hb]
  exact Cert.RowVector.reshape_eq_broadcast (n := 64) x6 _ _

/-- The bias added and the clamp at zero: what the fourth region leaves in its output array is the other program's
    maximum of (aggregate + bias) and zero, entry by entry. -/
theorem activated (hagg : W6 m ρ c (Proc.devRef .tc main_v55) = val_main_v57 (F := Ideal) x0 x1 x3 x4 x5)
    (hrow : W6 m ρ c (Proc.devRef .tc main_v56) = val_main_v58 (F := Ideal) x6) :
    W7 m ρ c (Proc.devRef .tc main_v57) = val_main_v61 (F := Ideal) x0 x1 x3 x4 x5 x6 := by
  refine (W7_arr m ρ c 2).trans ?_
  rw [Bias3.arr (V6 m ρ) c]
  show Cert.Spec.addRowRelu (M := 50000) (N := 64) (W6 m ρ c (Proc.devRef .tc main_v55)) (W6 m ρ c (Proc.devRef .tc main_v56)) = _
  rw [hagg, hrow]
  funext i
  obtain ⟨p, q, rfl⟩ : ∃ (p : Fin 50000) (q : Fin 64), i = ix2 p q := ⟨i 0, i 1, eq_ix2 i⟩
  rw [Cert.Spec.addRowRelu_apply, val_main_v61_apply, val_main_v60_apply, val_main_v59_apply, val_main_call1_v0_apply,
    val_main_call1_cst_apply]
  have e : idx_main_v59 (ix2 p q) = ix2 (0 : Fin 1) q :=
    funext fun a => Fin.ext (by match a with | ⟨0, _⟩ => rfl | ⟨1, _⟩ => rfl)
  rw [e]
  rfl

end Cert.KernelIdeal.Layer2

end
-- ==== Proof.Dense4.lean ====
/-
  The third dense stage. The region runs over ten grid points; point t takes rows 5000 t … 5000 t + 4999 of the
  [50000, 64] left operand and the whole [64, 64] weight, and stores into rows 5000 t … 5000 t + 4999 of the result
  the product of the two blocks accumulated from zero. Entry (p, q) of that block is the sum over k of the row
  block's entry (p, k) times the weight's entry (k, q), which is entry (5000 t + p, q) of the product of the two
  whole arrays. The ten row blocks tile the result array, so after the region it holds the product.
-/
import proofs.«102946_j54863912239540_1_alg».proof.Proof.Gen.KernelIdeal.Frame
import proofs.«102946_j54863912239540_1_alg».proof.Proof.Spec
import proofs.«102946_j54863912239540_1_alg».proof.Proof.LibPlainDot
import Idealize.ShloMosaic.Lib.Pipeline.Value
import Idealize.ShloMosaic.Lib.ValueIdx

noncomputable section

namespace Cert.KernelIdeal.Dense4

open Cert.KernelIdeal Cert.KernelIdeal.Gen Idealize.ShloMosaic Idealize.ShloMosaic.TcCoe Idealize.SL.Sem
open Idealize.ShloMosaic.ValueIdx
open Idealize.ShloMosaic.Pipeline (Dat)

/-- The printed dimension record of the product is the plain one: rows of the left operand against columns of the right. -/
theorem dims_plain : dot_S5000x64_S64x64_S5000x64_1_0_0_1_n_n = DotDims.plain 5000 64 64 := rfl

theorem zero_offsets : (![0, 0] : Fin 2 → Nat) = fun _ => 0 := funext fun a => by fin_cases a <;> rfl

/-- What the body stores, at row p and column q of its block: the sum over k of the row block's entry (p, k)
    times the weight's entry (k, q). The cast to the same shape and the two changes of float format are the identity on
    extended reals, and the accumulator starts at zero. -/
theorem stored_apply (x0 : Vec Ideal S5000x64 .f32) (x1 : Vec Ideal S64x64 .f32) (p : Fin 5000) (q : Fin 64) :
    k4_pay1 (F := Ideal) x0 x1 (ix2 p q) = ∑ k : Fin 64, x0 (ix2 p k) * x1 (ix2 k q) := by
  unfold k4_pay1
  rw [shapeCast_self]
  exact Cert.PlainDot.matmul_zero_apply (M := 5000) (K := 64) (N := 64) dot_S5000x64_S64x64_S5000x64_1_0_0_1_n_n dims_plain none
    (truncf .bf16 x0 bitsLt_bf16_f32) (truncf .bf16 x1 bitsLt_bf16_f32) p q

/-- The block indices at the ten grid points: point t takes row block t of the left operand and of the result,
    and the whole weight. -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b)) (c : Dev nD)

/-- Entry (p, k) of row block t of the left operand is entry (5000 t + p, k) of the array. -/
theorem lhs_block (t : Fin cfg4.N) (p : Fin 5000) (k : Fin 64) (r : Fin 50000) (hr : r.val = 5000 * t.val + p.val) :
    (iblk4 V c 0 t : Vec Ideal S5000x64 .f32) (ix2 p k) = (V c main_v57 : S50000x64.Idx → EReal) (ix2 r k) := by
  obtain ⟨e0, e1, -⟩ := block_indices t
  unfold iblk4
  rw [View.read_apply]
  show V c main_v57 (((cfg4.win 0).blk t).view.emb (ix2 p k)) = V c main_v57 (ix2 r k)
  congr 1
  funext a
  apply Fin.ext
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

/-- The weight's block at every point is the whole weight. -/
theorem rhs_block (t : Fin cfg4.N) (k : Fin 64) (q : Fin 64) :
    (iblk4 V c 1 t : Vec Ideal S64x64 .f32) (ix2 k q) = (V c main_arg7 : S64x64.Idx → EReal) (ix2 k q) := by
  obtain ⟨-, -, e2, e3, -⟩ := block_indices t
  unfold iblk4
  rw [View.read_apply]
  show V c main_arg7 (((cfg4.win 1).blk t).view.emb (ix2 k q)) = V c main_arg7 (ix2 k q)
  congr 1
  funext a
  apply Fin.ext
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- Entry (p, q) of the result's block t sits at row 5000 t + p, column q of the result array. -/
theorem out_block_index (t : Fin cfg4.N) (p : Fin 5000) (q : Fin 64) :
    ∃ r : Fin 50000, r.val = 5000 * t.val + p.val ∧ ((cfg4.win 2).blk t).view.emb (ix2 p q) = ix2 r q := by
  obtain ⟨-, -, -, -, e4, e5⟩ := block_indices t
  have ht : t.val < 10 := t.isLt
  refine ⟨⟨5000 * t.val + p.val, by omega⟩, rfl, ?_⟩
  funext a
  apply Fin.ext
  match a with
  | ⟨0, _⟩ => show win4_2.index t (0 : Fin 2) * 5000 + 1 * p.val = 5000 * t.val + p.val; rw [e4]; omega
  | ⟨1, _⟩ => show win4_2.index t (1 : Fin 2) * 64 + 1 * q.val = q.val; rw [e5]; omega

/-- What point t writes back is block t of the product of the two arrays. -/
theorem flushed_eq (t : Fin cfg4.N) :
    (dat4 (F := Ideal) V c).flushed 2 t
      = ((cfg4.win 2).blk t).view.read (Elt Ideal)
          (Cert.Spec.dense (M := 50000) (K := 64) (N := 64) (V c main_v57) (V c main_arg7)) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64x64) zero_offsets]
  refine funext fun (j : S5000x64.Idx) => ?_
  obtain ⟨p, q, rfl⟩ : ∃ (p : Fin 5000) (q : Fin 64), j = ix2 p q := ⟨j 0, j 1, eq_ix2 j⟩
  refine Eq.trans ?_ (View.read_apply _ _).symm
  obtain ⟨r, hr, he⟩ := out_block_index t p q
  show k4_pay1 (iblk4 V c 0 t) (iblk4 V c 1 t) (ix2 p q)
    = Cert.Spec.dense (M := 50000) (K := 64) (N := 64) (V c main_v57) (V c main_arg7) (((cfg4.win 2).blk t).view.emb (ix2 p q))
  rw [he, Cert.Spec.dense_apply]
  refine (stored_apply (iblk4 V c 0 t) (iblk4 V c 1 t) p q).trans ?_
  refine Finset.sum_congr rfl fun k _ => ?_
  rw [lhs_block V c t p k r hr, rhs_block V c t k q]

/-- Every row of the result array lies in the block of the point numbered by the row's quotient by 5000. -/
theorem covered (i : S50000x64.Idx) :
    ∃ t : Fin cfg4.N, (cfg4.win 2).flush t = true ∧ i ∈ ((cfg4.win 2).blk t).view.set := by
  have h0 : (i 0).val < 50000 := (i 0).isLt
  have h1 : (i 1).val < 64 := (i 1).isLt
  have hq : (i 0).val / 5000 < 10 := by omega
  refine ⟨⟨(i 0).val / 5000, hq⟩, flush4_2 _, ?_⟩
  obtain ⟨-, -, -, -, e4, e5⟩ := block_indices ⟨(i 0).val / 5000, hq⟩
  show i ∈ ((View.whole main_v58).slice (win4_2.rect ⟨(i 0).val / 5000, hq⟩)).set
  rw [View.set_slice_whole, Rect.mem_set_unit]
  intro a
  match a with
  | ⟨0, _⟩ =>
    show win4_2.index ⟨(i 0).val / 5000, hq⟩ (0 : Fin 2) * 5000 ≤ (i 0).val
      ∧ (i 0).val < win4_2.index ⟨(i 0).val / 5000, hq⟩ (0 : Fin 2) * 5000 + 5000
    rw [e4]
    show (i 0).val / 5000 * 5000 ≤ (i 0).val ∧ (i 0).val < (i 0).val / 5000 * 5000 + 5000
    omega
  | ⟨1, _⟩ =>
    show win4_2.index ⟨(i 0).val / 5000, hq⟩ (1 : Fin 2) * 64 ≤ (i 1).val
      ∧ (i 1).val < win4_2.index ⟨(i 0).val / 5000, hq⟩ (1 : Fin 2) * 64 + 64
    rw [e5]
    omega

/-- The result array after the region: the product of the left operand and the weight, as the region finds them. -/
theorem arr : (Gen.dat4 (F := Ideal) V c).arrAt 2 cfg4.N
    = Cert.Spec.dense (M := 50000) (K := 64) (N := 64) (V c main_v57) (V c main_arg7) :=
  (dat4 (F := Ideal) V c).arrAt_eq_of_cover 2 _ (fun t _ => flushed_eq V c t) (covered)

end Cert.KernelIdeal.Dense4

end
-- ==== Proof.Bias5.lean ====
/-
  The bias stage of the third layer. The [50000, 64] array x (%70) is cut into ten blocks of 5000 rows; the
  [1, 64] bias row b (%71) is seen whole at every block. At each block the body adds b to every row, with no clamp.
  Read entry by entry, the array the ten write-backs leave is therefore
      (r, q) ↦ x (r, q) + b (0, q),
  because the blocks tile the rows (row r is row r mod 5000 of block r / 5000) and the columns are not cut.
-/
import proofs.«102946_j54863912239540_1_alg».proof.Proof.Gen.KernelIdeal.Frame
import proofs.«102946_j54863912239540_1_alg».proof.Proof.Spec
import Idealize.ShloMosaic.Lib.Pipeline.Value
import Idealize.ShloMosaic.Lib.ValueIdx

noncomputable section

namespace Cert.KernelIdeal.Bias5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The zero offsets of a whole-buffer access, as a constant function. -/
theorem zero_off : (![0, 0] : Fin 2 → Nat) = fun _ => 0 := funext fun a => by fin_cases a <;> rfl

/-- One entry of the block the body stores: the entry of the row block plus the bias row's entry of the same column.
    The two same-shape casts are identities, and the row is repeated down the 5000 rows. -/
theorem block_entry (x0 : Vec Ideal S5000x64 .f32) (x1 : Vec Ideal S1x64 .f32) (p : Fin 5000) (q : Fin 64) :
    k5_pay1 (F := Ideal) x0 x1 (ix2 p q) = x0 (ix2 p q) + x1 (ix2 (0 : Fin 1) q) := by
  unfold k5_pay1
  rw [addf_apply, shapeCast_self, shapeCast_self,
    broadcastTo_apply x1 broadcasts_S1x64_S5000x64 (ix2 p q) (ix2 (0 : Fin 1) q) (fun a => by
      match a with
      | ⟨0, _⟩ => rfl
      | ⟨1, _⟩ => rfl)]

/-- The specification at an array index whose column is q. -/
theorem spec_entry (a : S50000x64.Idx → EReal) (b : S1x64.Idx → EReal) (k : S50000x64.Idx) (q : Fin 64)
    (hk : (k 1).val = q.val) :
    Cert.Spec.addRow (M := 50000) (N := 64) a b k = a k + b (ix2 (0 : Fin 1) q) := by
  have e : (k 1 : Fin 64) = q := Fin.ext hk
  unfold Cert.Spec.addRow
  exact congrArg (fun z : Fin 64 => a k + b (ix2 (0 : Fin 1) z)) e

/-- The index maps, decided over the ten grid points: at point t the input row block and the output row block
    are both block (t, 0) of their arrays, and the bias row's block is always block (0, 0). -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input row block at point t reads the array exactly where the output block of point t will be written. -/
theorem rows_block (t : Fin cfg5.N) (y : S5000x64.Idx) :
    iblk5 V c 0 t y = V c main_v70 (((cfg5.win 2).blk t).view.emb y) := by
  obtain ⟨e0, e1, e2, e3, e4, e5⟩ := block_indices t
  show V c main_v70 (((cfg5.win 0).blk t).view.emb y) = V c main_v70 (((cfg5.win 2).blk t).view.emb y)
  refine congrArg (V c main_v70) (funext fun a => Fin.ext ?_)
  match a with
  | ⟨0, _⟩ =>
    show win5_0.index t (0 : Fin 2) * 5000 + 1 * (y 0).val = win5_2.index t (0 : Fin 2) * 5000 + 1 * (y 0).val
    omega
  | ⟨1, _⟩ =>
    show win5_0.index t (1 : Fin 2) * 64 + 1 * (y 1).val = win5_2.index t (1 : Fin 2) * 64 + 1 * (y 1).val
    omega

/-- The bias window's block is the whole [1, 64] row at every point. -/
theorem bias_block (t : Fin cfg5.N) (y : S1x64.Idx) : iblk5 V c 1 t y = V c main_v71 y := by
  obtain ⟨e0, e1, e2, e3, e4, e5⟩ := block_indices t
  show V c main_v71 (((cfg5.win 1).blk t).view.emb y) = V c main_v71 y
  refine congrArg (V c main_v71) (funext fun a => Fin.ext ?_)
  match a with
  | ⟨0, _⟩ =>
    show win5_1.index t (0 : Fin 2) * 1 + 1 * (y 0).val = (y 0).val
    omega
  | ⟨1, _⟩ =>
    show win5_1.index t (1 : Fin 2) * 64 + 1 * (y 1).val = (y 1).val
    omega

/-- Columns are not cut: an entry of the output block keeps its column in the array. -/
theorem out_column (t : Fin cfg5.N) (y : S5000x64.Idx) :
    ((((cfg5.win 2).blk t).view.emb y) 1).val = (y 1).val := by
  obtain ⟨e0, e1, e2, e3, e4, e5⟩ := block_indices t
  show win5_2.index t (1 : Fin 2) * 64 + 1 * (y 1).val = (y 1).val
  omega

/-- What point t writes back is block t of the specified array. -/
theorem written_block (t : Fin cfg5.N) :
    (dat5 (F := Ideal) V c).flushed 2 t
      = ((cfg5.win 2).blk t).view.read (Elt Ideal) (Cert.Spec.addRow (M := 50000) (N := 64) (V c main_v70) (V c main_v71)) := by
  show (cfg5.win 2).cut (grid5.coords t) ((dat5 V c).after 2 t) = _
  rw [after5_2]
  unfold out5_2
  rw [View.canon_unit_zero zero_off]
  simp only [View.ld_unit_zero (S := S5000x64) zero_off, View.ld_unit_zero (S := S1x64) zero_off]
  funext j
  obtain ⟨p, q, rfl⟩ : ∃ (p : Fin 5000) (q : Fin 64), j = ix2 p q := ⟨j 0, j 1, eq_ix2 j⟩
  show k5_pay1 (iblk5 V c 0 t) (iblk5 V c 1 t) (ix2 p q)
    = Cert.Spec.addRow (M := 50000) (N := 64) (V c main_v70) (V c main_v71) (((cfg5.win 2).blk t).view.emb (ix2 p q))
  refine (block_entry (iblk5 V c 0 t) (iblk5 V c 1 t) p q).trans ?_
  rw [rows_block V c t (ix2 p q), bias_block V c t (ix2 (0 : Fin 1) q)]
  exact (spec_entry (V c main_v70) (V c main_v71) _ q (out_column t (ix2 p q))).symm

/-- An index of the array lies in point t's output block iff each coordinate lies in the block's range on its axis. -/
theorem mem_block (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v72).slice (win5_2.rect t)).set ↔ _
  rw [View.set_slice_whole, Rect.mem_set_unit]
  exact Iff.rfl

/-- The ten row blocks tile the array: row r lies in block r / 5000. -/
theorem blocks_cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, by rw [show cfg5.N = 10 from N_5]; omega⟩, rfl⟩
  obtain ⟨e0, e1, e2, e3, e4, e5⟩ := block_indices t
  refine ⟨t, flush5_2 t, ?_⟩
  rw [mem_block]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 64 ≤ (i 1).val ∧ (i 1).val < win5_2.index t (1 : Fin 2) * 64 + 64
    omega

/-- The array after the ten write-backs is the specified one. -/
theorem arr : (dat5 (F := Ideal) V c).arrAt 2 cfg5.N
    = Cert.Spec.addRow (M := 50000) (N := 64) (V c main_v70) (V c main_v71) :=
  (dat5 (F := Ideal) V c).arrAt_eq_of_cover 2 _ (fun t _ => written_block V c t) blocks_cover

end Cert.KernelIdeal.Bias5

end
-- ==== Proof.Layer3.lean ====
/-
  The third layer, level by level, against the other program's stages.

  The dense product of the second layer's output with the third weight matrix, the aggregation over the edges by the
  same host operations, the bias laid out as a row, and the bias added to every row — this layer has no clamp. Each
  lemma takes what the boundary holds in the buffers its level reads and concludes what the next boundary holds in the
  buffer the level writes: the other program's stage of the same name.
-/
import proofs.«102946_j54863912239540_1_alg».proof.Proof.Gen.KernelIdeal.Frame
import proofs.«102946_j54863912239540_1_alg».proof.Proof.Gen.ReferenceIdeal.Read
import proofs.«102946_j54863912239540_1_alg».proof.Proof.Spec
import proofs.«102946_j54863912239540_1_alg».proof.Proof.Dense4
import proofs.«102946_j54863912239540_1_alg».proof.Proof.Bias5
import proofs.«102946_j54863912239540_1_alg».proof.Proof.LibRowVector

set_option maxRecDepth 16384

noncomputable section

namespace Cert.KernelIdeal.Layer3

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)
variable (x0 : (⟨S50000x64, .f32⟩ : BufTy).Contents (Elt Ideal)) (x1 : (⟨S2x800000, .i32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))

/-- The product of the second layer's output with the third weight matrix: what the fifth region leaves in its output array is
    the whole dot_general, entry (p, q) of either being the sum over k of input (p, k) times weight (k, q). -/
theorem product (ha : W7 m ρ c (Proc.devRef .tc main_v57) = val_main_v61 (F := Ideal) x0 x1 x3 x4 x5 x6)
    (hw : W7 m ρ c (Proc.devRef .tc main_arg7) = x7) :
    W8 m ρ c (Proc.devRef .tc main_v58) = val_main_v62 (F := Ideal) x0 x1 x3 x4 x5 x6 x7 := by
  refine (W8_arr m ρ c 2).trans ?_
  rw [Dense4.arr (V7 m ρ) c]
  show Cert.Spec.dense (M := 50000) (K := 64) (N := 64) (W7 m ρ c (Proc.devRef .tc main_v57)) (W7 m ρ c (Proc.devRef .tc main_arg7)) = _
  rw [ha, hw]
  funext i
  obtain ⟨p, q, rfl⟩ : ∃ (p : Fin 50000) (q : Fin 64), i = ix2 p q := ⟨i 0, i 1, eq_ix2 i⟩
  rw [Cert.Spec.dense_apply, val_main_v62_apply]
  refine Finset.sum_congr rfl fun k _ => ?_
  have el : lidx_main_v62 (ix2 p q) k = ix2 p k :=
    funext fun a => Fin.ext (by match a with | ⟨0, _⟩ => rfl | ⟨1, _⟩ => rfl)
  have er : ridx_main_v62 (ix2 p q) k = ix2 k q :=
    funext fun a => Fin.ext (by match a with | ⟨0, _⟩ => rfl | ⟨1, _⟩ => rfl)
  rw [el, er]

/-- The aggregation over the edges: the same host operations on both sides, applied to equal products, equal edge
    lists and equal edge weights. -/
theorem aggregated (hp : W8 m ρ c (Proc.devRef .tc main_v58) = val_main_v62 (F := Ideal) x0 x1 x3 x4 x5 x6 x7)
    (hs : W8 m ρ c (Proc.devRef .tc main_v3) = val_main_v3 (F := Ideal) x1)
    (hd : W8 m ρ c (Proc.devRef .tc main_v6) = val_main_v6 (F := Ideal) x1)
    (hg : W8 m ρ c (Proc.devRef .tc main_v27) = val_main_v27 (F := Ideal) x1) :
    W9 m ρ c (Proc.devRef .tc main_v70) = val_main_v74 (F := Ideal) x0 x1 x3 x4 x5 x6 x7 := by
  show StableHlo.after hostOps5 (W8 m ρ c) (Proc.devRef .tc main_v70) = _
  after_results_simp
  rw [hp, hs, hd, hg]
  rfl

/-- The bias laid out as a row: a reshape on one side, a broadcast along the second axis on the other. -/
theorem biasRow (hb : W8 m ρ c (Proc.devRef .tc main_arg8) = x8) :
    W9 m ρ c (Proc.devRef .tc main_v71) = val_main_v75 (F := Ideal) x8 := by
  show StableHlo.after hostOps5 (W8 m ρ c) (Proc.devRef .tc main_v71) = _
  after_results_simp
  rw [hb]
  exact Cert.RowVector.reshape_eq_broadcast (n := 64) x8 _ _

/-- The bias added, with no clamp in this layer: what the sixth region leaves in its output array is the other
    program's aggregate + bias, entry by entry. -/
theorem biased (hagg : W9 m ρ c (Proc.devRef .tc main_v70) = val_main_v74 (F := Ideal) x0 x1 x3 x4 x5 x6 x7)
    (hrow : W9 m ρ c (Proc.devRef .tc main_v71) = val_main_v75 (F := Ideal) x8) :
    W10 m ρ c (Proc.devRef .tc main_v72) = val_main_v77 (F := Ideal) x0 x1 x3 x4 x5 x6 x7 x8 := by
  refine (W10_arr m ρ c 2).trans ?_
  rw [Bias5.arr (V9 m ρ) c]
  show Cert.Spec.addRow (M := 50000) (N := 64) (W9 m ρ c (Proc.devRef .tc main_v70)) (W9 m ρ c (Proc.devRef .tc main_v71)) = _
  rw [hagg, hrow]
  funext i
  obtain ⟨p, q, rfl⟩ : ∃ (p : Fin 50000) (q : Fin 64), i = ix2 p q := ⟨i 0, i 1, eq_ix2 i⟩
  rw [Cert.Spec.addRow_apply, val_main_v77_apply, val_main_v76_apply]
  have e : idx_main_v76 (ix2 p q) = ix2 (0 : Fin 1) q :=
    funext fun a => Fin.ext (by match a with | ⟨0, _⟩ => rfl | ⟨1, _⟩ => rfl)
  rw [e]
  rfl

end Cert.KernelIdeal.Layer3

end
-- ==== Proof.Head6.lean ====
/-
  The head stage. The region has one grid point; every window's block is its whole array: the [64, 64] pooled
  array, the [64, 32] weight, the [1, 32] bias row and the [64, 32] result. The body stores the product of the
  pooled array and the weight, accumulated from zero, with the bias row added to every row. So entry (p, q) of
  what the point writes back is the sum over k of pooled (p, k) times weight (k, q), plus bias (0, q), and that one
  block is the whole result array.
-/
import proofs.«102946_j54863912239540_1_alg».proof.Proof.Gen.KernelIdeal.Frame
import proofs.«102946_j54863912239540_1_alg».proof.Proof.Spec
import proofs.«102946_j54863912239540_1_alg».proof.Proof.LibPlainDot
import Idealize.ShloMosaic.Lib.Pipeline.Value
import Idealize.ShloMosaic.Lib.ValueIdx
import Idealize.ShloMosaic.Lib.ValueLayout

noncomputable section

namespace Cert.KernelIdeal.Head6

open Cert.KernelIdeal Cert.KernelIdeal.Gen Idealize.ShloMosaic Idealize.ShloMosaic.TcCoe Idealize.SL.Sem
open Idealize.ShloMosaic.ValueIdx
open Idealize.ShloMosaic.Pipeline (Dat)

/-- The printed dimension record of the product is the plain one: rows of the left operand against columns of the right. -/
theorem dims_plain : dot_S64x64_S64x32_S64x32_1_0_0_1_n_n = DotDims.plain 64 64 32 := rfl

theorem zero_offsets : (![0, 0] : Fin 2 → Nat) = fun _ => 0 := funext fun a => by fin_cases a <;> rfl

/-- What the body stores, at row p and column q: the sum over k of the pooled array's entry (p, k) times the
    weight's entry (k, q), plus the bias row's entry q. The casts to the same shape and the two changes of float
    format are the identity on extended reals, the accumulator starts at zero, and the one bias row is repeated on
    every row. -/
theorem stored_apply (x0 : Vec Ideal S64x64 .f32) (x1 : Vec Ideal S64x32 .f32) (x2 : Vec Ideal S1x32 .f32)
    (p : Fin 64) (q : Fin 32) :
    k6_pay1 (F := Ideal) x0 x1 x2 (ix2 p q) = (∑ k : Fin 64, x0 (ix2 p k) * x1 (ix2 k q)) + x2 (ix2 (0 : Fin 1) q) := by
  unfold k6_pay1
  show addf (F := Ideal) (matmul (F := Ideal) dot_S64x64_S64x32_S64x32_1_0_0_1_n_n none
        (truncf (F := Ideal) .bf16 (shapeCast S64x64 x0 shapeCasts_S64x64_S64x64) bitsLt_bf16_f32)
        (truncf (F := Ideal) .bf16 x1 bitsLt_bf16_f32)
        (constant (F := Ideal) S64x32 .f32 0x00000000#32))
      (broadcastTo S64x32 (shapeCast S1x32 x2 shapeCasts_S1x32_S1x32) broadcasts_S1x32_S64x32) (ix2 p q) = _
  rw [shapeCast_self, shapeCast_self, addf_apply, broadcastTo_1b_ab_apply]
  exact congrArg (· + x2 (ix2 (0 : Fin 1) q))
    (Cert.PlainDot.matmul_zero_apply (M := 64) (K := 64) (N := 32) dot_S64x64_S64x32_S64x32_1_0_0_1_n_n dims_plain none
      (truncf .bf16 x0 bitsLt_bf16_f32) (truncf .bf16 x1 bitsLt_bf16_f32) p q)

/-- The block indices at the one grid point: every window's block is its whole array. -/
theorem block_indices : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

variable (V : (c : Dev nD) → (b : Ref sig .tc) → Buf (Elt Ideal) ((c : Thread nD τ).loc b)) (c : Dev nD)

/-- The pooled array's block is the whole array. -/
theorem pooled_block (t : Fin cfg6.N) (p : Fin 64) (k : Fin 64) :
    (iblk6 V c 0 t : Vec Ideal S64x64 .f32) (ix2 p k) = (V c main_v82 : S64x64.Idx → EReal) (ix2 p k) := by
  obtain ⟨e0, e1, -⟩ := block_indices t
  unfold iblk6
  rw [View.read_apply]
  show V c main_v82 (((cfg6.win 0).blk t).view.emb (ix2 p k)) = V c main_v82 (ix2 p k)
  congr 1
  funext a
  apply Fin.ext
  match a with
  | ⟨0, _⟩ => show win6_0.index t (0 : Fin 2) * 64 + 1 * p.val = p.val; rw [e0]; omega
  | ⟨1, _⟩ => show win6_0.index t (1 : Fin 2) * 64 + 1 * k.val = k.val; rw [e1]; omega

/-- The weight's block is the whole weight. -/
theorem weight_block (t : Fin cfg6.N) (k : Fin 64) (q : Fin 32) :
    (iblk6 V c 1 t : Vec Ideal S64x32 .f32) (ix2 k q) = (V c main_arg9 : S64x32.Idx → EReal) (ix2 k q) := by
  obtain ⟨-, -, e2, e3, -⟩ := block_indices t
  unfold iblk6
  rw [View.read_apply]
  show V c main_arg9 (((cfg6.win 1).blk t).view.emb (ix2 k q)) = V c main_arg9 (ix2 k q)
  congr 1
  funext a
  apply Fin.ext
  match a with
  | ⟨0, _⟩ => show win6_1.index t (0 : Fin 2) * 64 + 1 * k.val = k.val; rw [e2]; omega
  | ⟨1, _⟩ => show win6_1.index t (1 : Fin 2) * 32 + 1 * q.val = q.val; rw [e3]; omega

/-- The bias row's block is the whole row. -/
theorem bias_block (t : Fin cfg6.N) (z : Fin 1) (q : Fin 32) :
    (iblk6 V c 2 t : Vec Ideal S1x32 .f32) (ix2 z q) = (V c main_v83 : S1x32.Idx → EReal) (ix2 z q) := by
  obtain ⟨-, -, -, -, e4, e5, -⟩ := block_indices t
  unfold iblk6
  rw [View.read_apply]
  show V c main_v83 (((cfg6.win 2).blk t).view.emb (ix2 z q)) = V c main_v83 (ix2 z q)
  congr 1
  funext a
  apply Fin.ext
  match a with
  | ⟨0, _⟩ => show win6_2.index t (0 : Fin 2) * 1 + 1 * z.val = z.val; rw [e4]; omega
  | ⟨1, _⟩ => show win6_2.index t (1 : Fin 2) * 32 + 1 * q.val = q.val; rw [e5]; omega

/-- Entry (p, q) of the result's block sits at entry (p, q) of the result array. -/
theorem out_block_index (t : Fin cfg6.N) (p : Fin 64) (q : Fin 32) :
    ((cfg6.win 3).blk t).view.emb (ix2 p q) = ix2 p q := by
  obtain ⟨-, -, -, -, -, -, e6, e7⟩ := block_indices t
  funext a
  apply Fin.ext
  match a with
  | ⟨0, _⟩ => show win6_3.index t (0 : Fin 2) * 64 + 1 * p.val = p.val; rw [e6]; omega
  | ⟨1, _⟩ => show win6_3.index t (1 : Fin 2) * 32 + 1 * q.val = q.val; rw [e7]; omega

/-- What the one point writes back is the whole head: the product plus the bias row on every row. -/
theorem flushed_eq (t : Fin cfg6.N) :
    (dat6 (F := Ideal) V c).flushed 3 t
      = ((cfg6.win 3).blk t).view.read (Elt Ideal)
          (Cert.Spec.head (M := 64) (K := 64) (N := 32) (V c main_v82) (V c main_arg9) (V c main_v83)) := by
  show (cfg6.win 3).cut (grid6.coords t) ((dat6 V c).after 3 t) = _
  rw [after6_3]
  unfold out6_3
  rw [View.canon_unit_zero zero_offsets]
  simp only [View.ld_unit_zero (S := S64x64) zero_offsets, View.ld_unit_zero (S := S64x32) zero_offsets,
    View.ld_unit_zero (S := S1x32) zero_offsets]
  refine funext fun (j : S64x32.Idx) => ?_
  obtain ⟨p, q, rfl⟩ : ∃ (p : Fin 64) (q : Fin 32), j = ix2 p q := ⟨j 0, j 1, eq_ix2 j⟩
  refine Eq.trans ?_ (View.read_apply _ _).symm
  show k6_pay1 (iblk6 V c 0 t) (iblk6 V c 1 t) (iblk6 V c 2 t) (ix2 p q)
    = Cert.Spec.head (M := 64) (K := 64) (N := 32) (V c main_v82) (V c main_arg9) (V c main_v83)
        (((cfg6.win 3).blk t).view.emb (ix2 p q))
  rw [out_block_index t p q, Cert.Spec.head_apply]
  refine (stored_apply (iblk6 V c 0 t) (iblk6 V c 1 t) (iblk6 V c 2 t) p q).trans ?_
  rw [bias_block V c t 0 q]
  refine congrArg (· + (V c main_v83 : S1x32.Idx → EReal) (ix2 (0 : Fin 1) q)) ?_
  refine Finset.sum_congr rfl fun k _ => ?_
  rw [pooled_block V c t p k, weight_block V c t k q]

/-- Every entry of the result array lies in the one point's block. -/
theorem covered (i : S64x32.Idx) :
    ∃ t : Fin cfg6.N, (cfg6.win 3).flush t = true ∧ i ∈ ((cfg6.win 3).blk t).view.set := by
  have h0 : (i 0).val < 64 := (i 0).isLt
  have h1 : (i 1).val < 32 := (i 1).isLt
  have hq : 0 < 1 := Nat.one_pos
  refine ⟨⟨0, hq⟩, flush6_3 _, ?_⟩
  obtain ⟨-, -, -, -, -, -, e6, e7⟩ := block_indices ⟨0, hq⟩
  show i ∈ ((View.whole main_v84).slice (win6_3.rect ⟨0, hq⟩)).set
  rw [View.set_slice_whole, Rect.mem_set_unit]
  intro a
  match a with
  | ⟨0, _⟩ =>
    show win6_3.index ⟨0, hq⟩ (0 : Fin 2) * 64 ≤ (i 0).val ∧ (i 0).val < win6_3.index ⟨0, hq⟩ (0 : Fin 2) * 64 + 64
    rw [e6]
    omega
  | ⟨1, _⟩ =>
    show win6_3.index ⟨0, hq⟩ (1 : Fin 2) * 32 ≤ (i 1).val ∧ (i 1).val < win6_3.index ⟨0, hq⟩ (1 : Fin 2) * 32 + 32
    rw [e7]
    omega

/-- The result array after the region: the head of the pooled array, the weight and the bias row, as the region finds them. -/
theorem arr : (Gen.dat6 (F := Ideal) V c).arrAt 3 cfg6.N
    = Cert.Spec.head (M := 64) (K := 64) (N := 32) (V c main_v82) (V c main_arg9) (V c main_v83) :=
  (dat6 (F := Ideal) V c).arrAt_eq_of_cover 3 _ (fun t _ => flushed_eq V c t) (covered)

end Cert.KernelIdeal.Head6

end
-- ==== Proof.Pool.lean ====
/-
  The pooling and the head, against the other program's stages.

  After the third layer the host averages the node rows graph by graph: the rows are added into the row of their graph
  id, the number of nodes of each graph is counted by adding ones the same way, and each sum is divided by its count.
  Both programs do this with the same host operations, so equal node rows and equal graph ids give equal averages,
  and nothing of it is opened. The head then multiplies the averages by a weight matrix and adds a bias row — on chip
  in one block, against one dot_general and one whole-array sum: entry (p, q) of either is the sum over k of average
  (p, k) times weight (k, q), plus bias q.
-/
import proofs.«102946_j54863912239540_1_alg».proof.Proof.Gen.KernelIdeal.Frame
import proofs.«102946_j54863912239540_1_alg».proof.Proof.Gen.ReferenceIdeal.Read
import proofs.«102946_j54863912239540_1_alg».proof.Proof.Spec
import proofs.«102946_j54863912239540_1_alg».proof.Proof.Head6
import proofs.«102946_j54863912239540_1_alg».proof.Proof.LibRowVector

set_option maxRecDepth 16384

noncomputable section

namespace Cert.KernelIdeal.Pool

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)
variable (x0 : (⟨S50000x64, .f32⟩ : BufTy).Contents (Elt Ideal)) (x1 : (⟨S2x800000, .i32⟩ : BufTy).Contents (Elt Ideal)) (x2 : (⟨S50000, .i32⟩ : BufTy).Contents (Elt Ideal))
  (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal))

/-- The per-graph averages of the node rows: the same host operations on both sides, applied to equal node rows and
    equal graph ids. -/
theorem pooled (hh : W10 m ρ c (Proc.devRef .tc main_v72) = val_main_v77 (F := Ideal) x0 x1 x3 x4 x5 x6 x7 x8)
    (hb : W10 m ρ c (Proc.devRef .tc main_arg2) = x2) :
    W11 m ρ c (Proc.devRef .tc main_v82) = val_main_v87 (F := Ideal) x0 x1 x2 x3 x4 x5 x6 x7 x8 := by
  show StableHlo.after hostOps6 (W10 m ρ c) (Proc.devRef .tc main_v82) = _
  after_results_simp
  rw [hh, hb]
  rfl

/-- The head's bias laid out as a row: a reshape on one side, a broadcast along the second axis on the other. -/
theorem biasRow (hb : W10 m ρ c (Proc.devRef .tc main_arg10) = x10) :
    W11 m ρ c (Proc.devRef .tc main_v83) = val_main_v89 (F := Ideal) x10 := by
  show StableHlo.after hostOps6 (W10 m ρ c) (Proc.devRef .tc main_v83) = _
  after_results_simp
  rw [hb]
  exact Cert.RowVector.reshape_eq_broadcast (n := 32) x10 _ _

/-- The head: what the last region leaves in the result array is the other program's result, entry by entry the
    same sum of 64 products plus the same bias entry. -/
theorem head (hp : W11 m ρ c (Proc.devRef .tc main_v82) = val_main_v87 (F := Ideal) x0 x1 x2 x3 x4 x5 x6 x7 x8)
    (hw : W11 m ρ c (Proc.devRef .tc main_arg9) = x9)
    (hrow : W11 m ρ c (Proc.devRef .tc main_v83) = val_main_v89 (F := Ideal) x10) :
    W12 m ρ c (Proc.devRef .tc main_v84) = val_main_v91 (F := Ideal) x0 x1 x2 x3 x4 x5 x6 x7 x8 x9 x10 := by
  refine (W12_arr m ρ c 3).trans ?_
  rw [Head6.arr (V11 m ρ) c]
  show Cert.Spec.head (M := 64) (K := 64) (N := 32) (W11 m ρ c (Proc.devRef .tc main_v82)) (W11 m ρ c (Proc.devRef .tc main_arg9))
    (W11 m ρ c (Proc.devRef .tc main_v83)) = _
  rw [hp, hw, hrow]
  funext i
  obtain ⟨p, q, rfl⟩ : ∃ (p : Fin 64) (q : Fin 32), i = ix2 p q := ⟨i 0, i 1, eq_ix2 i⟩
  rw [Cert.Spec.head_apply, val_main_v91_apply, val_main_v88_apply, val_main_v90_apply]
  have el : ∀ k : Fin 64, lidx_main_v88 (ix2 p q) k = ix2 p k := fun k =>
    funext fun a => Fin.ext (by match a with | ⟨0, _⟩ => rfl | ⟨1, _⟩ => rfl)
  have er : ∀ k : Fin 64, ridx_main_v88 (ix2 p q) k = ix2 k q := fun k =>
    funext fun a => Fin.ext (by match a with | ⟨0, _⟩ => rfl | ⟨1, _⟩ => rfl)
  have e : idx_main_v90 (ix2 p q) = ix2 (0 : Fin 1) q :=
    funext fun a => Fin.ext (by match a with | ⟨0, _⟩ => rfl | ⟨1, _⟩ => rfl)
  simp only [el, er, e]
  rfl

end Cert.KernelIdeal.Pool

end
-- ==== Proof.KValue.lean ====
/-
  What the network's run leaves in the result buffer.

  The chain of boundary contents is walked from the launch to the end, level by level: the edge lists and weights of
  the first stretch; in each of the three layers the dense product, the aggregation over the edges, the bias row and
  the bias (with the clamp in the first two); then the per-graph averages and the head. At every level the buffer the
  level writes holds the other program's stage of the same name, as a function of the launch contents of the eleven
  arguments — the buffers a level reads being either the previous level's or buffers that rode through the chain
  untouched. The last level is the result: the contents at the last boundary of the result buffer are the other
  program's last stage. Joined with the run that names every buffer, this is the kernel's run for the value claim.
-/
import proofs.«102946_j54863912239540_1_alg».proof.Proof.KRun
import proofs.«102946_j54863912239540_1_alg».proof.Proof.Carry
import proofs.«102946_j54863912239540_1_alg».proof.Proof.Stretch0
import proofs.«102946_j54863912239540_1_alg».proof.Proof.Layer1
import proofs.«102946_j54863912239540_1_alg».proof.Proof.Layer2
import proofs.«102946_j54863912239540_1_alg».proof.Proof.Layer3
import proofs.«102946_j54863912239540_1_alg».proof.Proof.Pool

set_option maxRecDepth 16384

noncomputable section

namespace Cert.KernelIdeal.KValue

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ) (ρ : Dev nD → PrngReg)

/-- The last boundary's contents at the result buffer are the other program's last stage of the arguments. -/
theorem result (c : Dev nD) : W12 m ρ c (Proc.devRef .tc main_v84) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  -- the edge lists and weights, where each layer's stretch finds them
  have s := Stretch0.src m ρ c
  have d := Stretch0.dst m ρ c
  have g := Stretch0.wgt m ρ c
  -- the first layer
  have p1 := Layer1.product m ρ c _ _ (Carry.arg0_at1 m ρ c) (Carry.arg3_at1 m ρ c)
  have a1 := Layer1.aggregated m ρ c _ _ _ p1 ((Carry.src_at2 m ρ c).trans s) ((Carry.dst_at2 m ρ c).trans d)
    ((Carry.wgt_at2 m ρ c).trans g)
  have r1 := Layer1.biasRow m ρ c _ (Carry.arg4_at2 m ρ c)
  have h1 := Layer1.activated m ρ c _ _ _ _ a1 r1
  -- the second layer
  have p2 := Layer2.product m ρ c _ _ _ _ _ h1 (Carry.arg5_at4 m ρ c)
  have a2 := Layer2.aggregated m ρ c _ _ _ _ _ p2 ((Carry.src_at5 m ρ c).trans s) ((Carry.dst_at5 m ρ c).trans d)
    ((Carry.wgt_at5 m ρ c).trans g)
  have r2 := Layer2.biasRow m ρ c _ (Carry.arg6_at5 m ρ c)
  have h2 := Layer2.activated m ρ c _ _ _ _ _ _ a2 r2
  -- the third layer
  have p3 := Layer3.product m ρ c _ _ _ _ _ _ _ h2 (Carry.arg7_at7 m ρ c)
  have a3 := Layer3.aggregated m ρ c _ _ _ _ _ _ _ p3 ((Carry.src_at8 m ρ c).trans s) ((Carry.dst_at8 m ρ c).trans d)
    ((Carry.wgt_at8 m ρ c).trans g)
  have r3 := Layer3.biasRow m ρ c _ (Carry.arg8_at8 m ρ c)
  have h3 := Layer3.biased m ρ c _ _ _ _ _ _ _ _ a3 r3
  -- the averages and the head
  have av := Pool.pooled m ρ c _ _ _ _ _ _ _ _ _ h3 (Carry.arg2_at10 m ρ c)
  have rl := Pool.biasRow m ρ c _ (Carry.arg10_at10 m ρ c)
  exact Pool.head m ρ c _ _ _ _ _ _ _ _ _ _ _ av (Carry.arg9_at11 m ρ c) rl

/-- The network's run for the value claim: every weakly fair execution terminates with the result buffer at the other
    program's last stage of the launch contents of the arguments, and every argument as launched. -/
theorem run : θ_run defs (onTc (τ := τ) (main (F := Ideal))) ⟨m, fun _ => 0, ρ⟩ (fun r => ∀ c : Dev nD,
      r.2.mem ((c.tc : Thread nD τ).loc main_v84) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (KRun.run_result m ρ)

end Cert.KernelIdeal.KValue

end
-- ==== Proof.lean ====
/-
  The certificate's claim.

  The two programs are a three-layer graph network with mean pooling and a linear head. They share every host
  operation — building the edge lists with self loops, the edge weights 1/sqrt(deg) · 1/sqrt(deg), the gather, scale
  and scatter-add of each layer's aggregation, the per-graph averages — and differ only where the kernel runs on chip:
  each layer's dense product (row blocks of 5000 rows, operands narrowed to bf16, accumulated into zero) against one
  whole dot_general, each layer's bias (and clamp at zero) block by block against whole-array operations, and the head
  in one block. Over the extended reals a change of float format is the identity, and an entry of a product is the same
  sum of 64 products however the rows are tiled, 0 + s being s for every extended real s; so every stage of the
  kernel's chain is the other program's stage of the same name, and so is the result. No law that needs finite inputs
  is used, so the precondition is never opened.

  The frames of the two kernel programs are the generated frame certificates; the host program's frame is its run with
  the result dropped; the idealization rewrote no operation, so what it preserves is trivial; the value claim joins
  the kernel's run (every buffer named, the result read down the chain) with the host program's run at one and the
  same term.
-/
import proofs.«102946_j54863912239540_1_alg».proof.Defs
import proofs.«102946_j54863912239540_1_alg».proof.Proof.Gen.Kernel
import proofs.«102946_j54863912239540_1_alg».proof.Proof.Gen.Kernel.Skeleton
import proofs.«102946_j54863912239540_1_alg».proof.Proof.Gen.Kernel.Launch
import proofs.«102946_j54863912239540_1_alg».proof.Proof.Gen.Kernel.Points
import proofs.«102946_j54863912239540_1_alg».proof.Proof.Gen.Kernel.Frame
import proofs.«102946_j54863912239540_1_alg».proof.Proof.Gen.KernelIdeal
import proofs.«102946_j54863912239540_1_alg».proof.Proof.Gen.KernelIdeal.Skeleton
import proofs.«102946_j54863912239540_1_alg».proof.Proof.Gen.KernelIdeal.Launch
import proofs.«102946_j54863912239540_1_alg».proof.Proof.Gen.KernelIdeal.Points
import proofs.«102946_j54863912239540_1_alg».proof.Proof.Gen.KernelIdeal.Frame
import proofs.«102946_j54863912239540_1_alg».proof.Proof.Gen.ReferenceIdeal
import proofs.«102946_j54863912239540_1_alg».proof.Proof.Gen.ReferenceIdeal.Run
import proofs.«102946_j54863912239540_1_alg».proof.Proof.Gen.ReferenceIdeal.Read
import proofs.«102946_j54863912239540_1_alg».proof.Proof.Gen.Pre_finite_inputs
import proofs.«102946_j54863912239540_1_alg».proof.Proof.KValue
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The host program runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, the two programs end with equal results: both at the host
    program's last stage of the arguments' launch contents. -/
theorem algebraic : Cert.algebraic_KernelIdeal_ReferenceIdeal := by
  intro m ρ m' ρ' _ hagree
  refine ⟨fun c => Cert.ReferenceIdeal.Read.val_main_v91 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
